-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x512 : Shape := ⟨2, ![256, 512]⟩
abbrev S512 : Shape := ⟨1, ![512]⟩
abbrev S512x512 : Shape := ⟨2, ![512, 512]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg5 : FVec F S512 .f32) (main_arg6 : FVec F S512x512 .f32) (main_arg7 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x512 .f32) (main_arg3 : FVec F S512 .f32) (main_arg4 : FVec F S512 .f32) (main_arg5 : FVec F S512 .f32) (main_arg6 : FVec F S512x512 .f32) (main_arg7 : FVec F S512 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x512 : Shape := ⟨2, ![256, 512]⟩
abbrev S512 : Shape := ⟨1, ![512]⟩
abbrev S512x512 : Shape := ⟨2, ![512, 512]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x512 : Shape := ⟨2, ![1, 512]⟩
abbrev S50000x512 : Shape := ⟨2, ![50000, 512]⟩
abbrev S2000x256 : Shape := ⟨2, ![2000, 256]⟩
abbrev S2000x512 : Shape := ⟨2, ![2000, 512]⟩

abbrev nBuf : Space → Nat
  | .hbm => 43
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S256x512, .bf16⟩
  | .hbm, ⟨26, _⟩ => ⟨S512x512, .bf16⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S50000x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | .hbm, ⟨37, _⟩ => ⟨S_, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S1x512, .f32⟩
  | .hbm, ⟨42, _⟩ => ⟨S50000x512, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x512, .bf16⟩
  | .local _ .vmem, ⟨5, _⟩ => ⟨S1x512, .f32⟩
  | .local _ .vmem, ⟨6, _⟩ => ⟨S2000x512, .f32⟩
  | .local _ .vmem, ⟨7, _⟩ => ⟨S2000x512, .f32⟩
  | .local _ .vmem, ⟨8, _⟩ => ⟨S1x512, .f32⟩
  | .local _ .vmem, ⟨9, _⟩ => ⟨S1x512, .f32⟩
  | .local _ .vmem, ⟨10, _⟩ => ⟨S2000x512, .f32⟩
  | .local _ .vmem, ⟨11, _⟩ => ⟨S2000x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x512, .bf16⟩
  | .local _ .vmem, ⟨17, _⟩ => ⟨S1x512, .f32⟩
  | .local _ .vmem, ⟨18, _⟩ => ⟨S2000x512, .f32⟩
  | .local _ .vmem, ⟨19, _⟩ => ⟨S2000x512, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bitsLt_bf16_f32 : FTy.bits .bf16 < FTy.bits .f32
  shapeCasts_S512_S1x512 : S512.ShapeCasts S1x512
  inb_S1x512_S1x512_0_0 : ∀ a, (![0, 0] : Fin 2 → Nat) a + S1x512.size a ≤ S1x512.size a
  h_S1x512 : 0 < S1x512.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  reduces_S2000x512_S512 : S2000x512.Reduces [0] S512
  bcast_S_S1x512 : S_.BroadcastsInDim S1x512 (![] : Fin 0 → Fin S1x512.rank)
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x512_S2000x512_1_0_0_1_n_n_wf : DotDims.WF S2000x256 S256x512 S2000x512 [1] [0] [0] [1] [] []
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S50000x512.size a
  hwx0_4 : ∀ i : grid0.Coords, EltTy.bits .f32 = 32 ∨ (Rect.block (s := S50000x512) S2000x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .bf16 = 32 ∨ (Rect.block (s := S512x512) S512x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x512.size a ≤ S50000x512.size a
  hwx1_7 : ∀ i : grid1.Coords, EltTy.bits .f32 = 32 ∨ (Rect.block (s := S50000x512) S2000x512.size (cc1_transform_7 i) (hinb1_7 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20_0) S2000x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20_1) S1x512.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20_2) S1x512.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20_0) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S2000x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x512 : Shape := ⟨2, ![256, 512]⟩
abbrev S512 : Shape := ⟨1, ![512]⟩
abbrev S512x512 : Shape := ⟨2, ![512, 512]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000x512 : Shape := ⟨2, ![50000, 512]⟩
abbrev S1x512 : Shape := ⟨2, ![1, 512]⟩

abbrev nBuf : Space → Nat
  | .hbm => 81
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S50000x256, .f32⟩
  | .hbm, ⟨26, _⟩ => ⟨S50000x512, .f32⟩
  | .hbm, ⟨27, _⟩ => ⟨S1x512, .f32⟩
  | .hbm, ⟨28, _⟩ => ⟨S50000x512, .f32⟩
  | .hbm, ⟨29, _⟩ => ⟨S50000x512, .f32⟩
  | .hbm, ⟨30, _⟩ => ⟨S_, .f32⟩
  | .hbm, ⟨31, _⟩ => ⟨S50000x512, .f32⟩
  | .hbm, ⟨32, _⟩ => ⟨S50000x512, .f32⟩
  | .hbm, ⟨33, _⟩ => ⟨S_, .f32⟩
  | .hbm, ⟨34, _⟩ => ⟨S512, .f32⟩
  | .hbm, ⟨35, _⟩ => ⟨S_, .f32⟩
  | .hbm, ⟨36, _⟩ => ⟨S512, .f32⟩
  | .hbm, ⟨37, _⟩ => ⟨S512, .f32⟩
  | .hbm, ⟨38, _⟩ => ⟨S_, .i32⟩
  | .hbm, ⟨39, _⟩ => ⟨S_, .f32⟩
  | .hbm, ⟨40, _⟩ => ⟨S512, .f32⟩
  | .hbm, ⟨41, _⟩ => ⟨S1x512, .f32⟩
  | .hbm, ⟨42, _⟩ => ⟨S_, .f32⟩
  | .hbm, ⟨43, _⟩ => ⟨S1x512, .f32⟩
  | .hbm, ⟨44, _⟩ => ⟨S1x512, .f32⟩
  | .hbm, ⟨45, _⟩ => ⟨S50000x512, .f32⟩
  | .hbm, ⟨46, _⟩ => ⟨S50000x512, .f32⟩
  | .hbm, ⟨47, _⟩ => ⟨S50000x512, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S512, .f32⟩
  | .hbm, ⟨53, _⟩ => ⟨S512, .f32⟩
  | .hbm, ⟨54, _⟩ => ⟨S512, .f32⟩
  | .hbm, ⟨55, _⟩ => ⟨S_, .f32⟩
  | .hbm, ⟨56, _⟩ => ⟨S_, .i1⟩
  | .hbm, ⟨57, _⟩ => ⟨S_, .f32⟩
  | .hbm, ⟨58, _⟩ => ⟨S_, .f32⟩
  | .hbm, ⟨59, _⟩ => ⟨S512, .f32⟩
  | .hbm, ⟨60, _⟩ => ⟨S512, .f32⟩
  | .hbm, ⟨61, _⟩ => ⟨S1x512, .f32⟩
  | .hbm, ⟨62, _⟩ => ⟨S50000x512, .f32⟩
  | .hbm, ⟨63, _⟩ => ⟨S50000x512, .f32⟩
  | .hbm, ⟨64, _⟩ => ⟨S_, .f32⟩
  | .hbm, ⟨65, _⟩ => ⟨S512, .f32⟩
  | .hbm, ⟨66, _⟩ => ⟨S512, .f32⟩
  | .hbm, ⟨67, _⟩ => ⟨S512, .f32⟩
  | .hbm, ⟨68, _⟩ => ⟨S1x512, .f32⟩
  | .hbm, ⟨69, _⟩ => ⟨S50000x512, .f32⟩
  | .hbm, ⟨70, _⟩ => ⟨S50000x512, .f32⟩
  | .hbm, ⟨71, _⟩ => ⟨S1x512, .f32⟩
  | .hbm, ⟨72, _⟩ => ⟨S50000x512, .f32⟩
  | .hbm, ⟨73, _⟩ => ⟨S50000x512, .f32⟩
  | .hbm, ⟨74, _⟩ => ⟨S1x512, .f32⟩
  | .hbm, ⟨75, _⟩ => ⟨S50000x512, .f32⟩
  | .hbm, ⟨76, _⟩ => ⟨S50000x512, .f32⟩
  | .hbm, ⟨77, _⟩ => ⟨S50000x512, .f32⟩
  | .hbm, ⟨78, _⟩ => ⟨S1x512, .f32⟩
  | .hbm, ⟨79, _⟩ => ⟨S50000x512, .f32⟩
  | .hbm, ⟨80, _⟩ => ⟨S50000x512, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_cst_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_cst_1 : Ref sig .tc := ⟨.hbm, 49, rfl⟩
abbrev main_call1_v8 : Ref sig .tc := ⟨.hbm, 50, rfl⟩
abbrev main_call1_cst_2 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_cst_3 : Ref sig .tc := ⟨.hbm, 55, rfl⟩
abbrev main_call1_v12 : Ref sig .tc := ⟨.hbm, 56, rfl⟩
abbrev main_call1_cst_4 : Ref sig .tc := ⟨.hbm, 57, rfl⟩
abbrev main_call1_call0_v0 : Ref sig .tc := ⟨.hbm, 58, rfl⟩
abbrev main_call1_call0_v1 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_4 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  reducesTo_S50000x512_S512_d0 : S50000x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x512_S50000x512_1_0_0_1_n_n_wf : DotDims.WF S50000x256 S256x512 S50000x512 [1] [0] [0] [1] [] []
  dot_S50000x512_S512x512_S50000x512_1_0_0_1_n_n_wf : DotDims.WF S50000x512 S512x512 S50000x512 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf

class Facts : Prop extends Facts₀ where

variable [Facts]
-- ==== Proof.K0Pieces.lean ====
/-
  What the first kernel's body leaves in its three output buffers at one grid point, as values of the blocks it was
  given.  The body stores the rectified hidden block whole; it adds that block's column sums into the running
  column-sum row and the column sums of its squares into the running sum-of-squares row.  At the first grid point both
  rows are first reset to zero, so there the additions start from the zero row; at every later point they start from
  what the point before left.  Each statement reads the stores the run found back as one function of the loaded blocks.
-/
import proofs.«154781_j36120674959489_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.K0

open Cert.KernelIdeal Cert.KernelIdeal.Gen

variable {F : FTy → Type} [FloatOps F]

/-- A whole block is read from offset zero on both axes. -/
theorem hz : (![0, 0] : Fin 2 → Nat) = fun _ => 0 := funext fun a => by fin_cases a <;> rfl

/-- Later points: the hidden block stored is the rectified affine image of the two input blocks. -/
theorem out_B_4 (c : Dev nD) (i : grid0.Coords) (a1 : Memref sig .tc .vmem S2000x256 .f32) (h1 : a1.IsWhole) (a2 : Memref sig .tc .vmem S2000x256 .f32) (h2 : a2.IsWhole) (a3 : Memref sig .tc .vmem S256x512 .bf16) (h3 : a3.IsWhole) (a4 : Memref sig .tc .vmem S1x512 .f32) (h4 : a4.IsWhole) (a5 : Memref sig .tc .vmem S2000x512 .f32) (h5 : a5.IsWhole) (a6 : Memref sig .tc .vmem S1x512 .f32) (h6 : a6.IsWhole) (a7 : Memref sig .tc .vmem S1x512 .f32) (h7 : a7.IsWhole) (hc : ¬cond0_0 i) (x0 : Vec F S2000x256 .f32) (x1 : Vec F S2000x256 .f32) (x2 : Vec F S256x512 .bf16) (x3 : Vec F S1x512 .f32) (xo5 xo6 : Vec F S1x512 .f32) :
    out0_B_4 c i a1 h1 a2 h2 a3 h3 a4 h4 a5 h5 a6 h6 a7 h7 hc x0 x1 x2 x3 xo5 xo6 = k0_pay3 x0 x1 x2 x3 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread, View.ld_unit_zero (S := S2000x256) hz, View.ld_unit_zero (S := S256x512) hz, View.ld_unit_zero (S := S1x512) hz]

/-- Later points: the column-sum row becomes what it held plus the block's column sums. -/
theorem out_B_5 (c : Dev nD) (i : grid0.Coords) (a1 : Memref sig .tc .vmem S2000x256 .f32) (h1 : a1.IsWhole) (a2 : Memref sig .tc .vmem S2000x256 .f32) (h2 : a2.IsWhole) (a3 : Memref sig .tc .vmem S256x512 .bf16) (h3 : a3.IsWhole) (a4 : Memref sig .tc .vmem S1x512 .f32) (h4 : a4.IsWhole) (a5 : Memref sig .tc .vmem S2000x512 .f32) (h5 : a5.IsWhole) (a6 : Memref sig .tc .vmem S1x512 .f32) (h6 : a6.IsWhole) (a7 : Memref sig .tc .vmem S1x512 .f32) (h7 : a7.IsWhole) (hc : ¬cond0_0 i) (x0 : Vec F S2000x256 .f32) (x1 : Vec F S2000x256 .f32) (x2 : Vec F S256x512 .bf16) (x3 : Vec F S1x512 .f32) (xo5 xo6 : Vec F S1x512 .f32) :
    out0_B_5 c i a1 h1 a2 h2 a3 h3 a4 h4 a5 h5 a6 h6 a7 h7 hc x0 x1 x2 x3 xo5 xo6 = k0_pay4 x0 x1 x2 x3 xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread, View.ld_unit_zero (S := S2000x256) hz, View.ld_unit_zero (S := S256x512) hz, View.ld_unit_zero (S := S1x512) hz]

/-- Later points: the sum-of-squares row becomes what it held plus the column sums of the block's squares. -/
theorem out_B_6 (c : Dev nD) (i : grid0.Coords) (a1 : Memref sig .tc .vmem S2000x256 .f32) (h1 : a1.IsWhole) (a2 : Memref sig .tc .vmem S2000x256 .f32) (h2 : a2.IsWhole) (a3 : Memref sig .tc .vmem S256x512 .bf16) (h3 : a3.IsWhole) (a4 : Memref sig .tc .vmem S1x512 .f32) (h4 : a4.IsWhole) (a5 : Memref sig .tc .vmem S2000x512 .f32) (h5 : a5.IsWhole) (a6 : Memref sig .tc .vmem S1x512 .f32) (h6 : a6.IsWhole) (a7 : Memref sig .tc .vmem S1x512 .f32) (h7 : a7.IsWhole) (hc : ¬cond0_0 i) (x0 : Vec F S2000x256 .f32) (x1 : Vec F S2000x256 .f32) (x2 : Vec F S256x512 .bf16) (x3 : Vec F S1x512 .f32) (xo5 xo6 : Vec F S1x512 .f32) :
    out0_B_6 c i a1 h1 a2 h2 a3 h3 a4 h4 a5 h5 a6 h6 a7 h7 hc x0 x1 x2 x3 xo5 xo6 = k0_pay5 x0 x1 x2 x3 xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread, View.ld_unit_zero (S := S2000x256) hz, View.ld_unit_zero (S := S256x512) hz, View.ld_unit_zero (S := S1x512) hz]

/-- The first point: the same hidden block. -/
theorem out_A_4 (c : Dev nD) (i : grid0.Coords) (a1 : Memref sig .tc .vmem S2000x256 .f32) (h1 : a1.IsWhole) (a2 : Memref sig .tc .vmem S2000x256 .f32) (h2 : a2.IsWhole) (a3 : Memref sig .tc .vmem S256x512 .bf16) (h3 : a3.IsWhole) (a4 : Memref sig .tc .vmem S1x512 .f32) (h4 : a4.IsWhole) (a5 : Memref sig .tc .vmem S2000x512 .f32) (h5 : a5.IsWhole) (a6 : Memref sig .tc .vmem S1x512 .f32) (h6 : a6.IsWhole) (a7 : Memref sig .tc .vmem S1x512 .f32) (h7 : a7.IsWhole) (hc : cond0_0 i) (x0 : Vec F S2000x256 .f32) (x1 : Vec F S2000x256 .f32) (x2 : Vec F S256x512 .bf16) (x3 : Vec F S1x512 .f32) :
    out0_A_4 c i a1 h1 a2 h2 a3 h3 a4 h4 a5 h5 a6 h6 a7 h7 hc x0 x1 x2 x3 = k0_pay3 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  rw [View.canon_unit_zero hz]
  simp only [View.readAt_eq_ld, h1.read_unread, h2.read_unread, h3.read_unread, h4.read_unread, h6.read_unread, h7.read_unread, View.ld_unit_zero (S := S2000x256) hz, View.ld_unit_zero (S := S256x512) hz, View.ld_unit_zero (S := S1x512) hz]

/-- The first point: the column-sum row is reset to zero, read back, and the block's column sums added to it. -/
theorem out_A_5 (c : Dev nD) (i : grid0.Coords) (a1 : Memref sig .tc .vmem S2000x256 .f32) (h1 : a1.IsWhole) (a2 : Memref sig .tc .vmem S2000x256 .f32) (h2 : a2.IsWhole) (a3 : Memref sig .tc .vmem S256x512 .bf16) (h3 : a3.IsWhole) (a4 : Memref sig .tc .vmem S1x512 .f32) (h4 : a4.IsWhole) (a5 : Memref sig .tc .vmem S2000x512 .f32) (h5 : a5.IsWhole) (a6 : Memref sig .tc .vmem S1x512 .f32) (h6 : a6.IsWhole) (a7 : Memref sig .tc .vmem S1x512 .f32) (h7 : a7.IsWhole) (hc : cond0_0 i) (x0 : Vec F S2000x256 .f32) (x1 : Vec F S2000x256 .f32) (x2 : Vec F S256x512 .bf16) (x3 : Vec F S1x512 .f32) :
    out0_A_5 c i a1 h1 a2 h2 a3 h3 a4 h4 a5 h5 a6 h6 a7 h7 hc x0 x1 x2 x3 = k0_pay4 x0 x1 x2 x3 k0_pay1 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x512) hz, View.readCov_unit_zero (S := S1x512) _ hz]
  simp only [View.readAt_eq_ld, h1.read_unread, h2.read_unread, h3.read_unread, h4.read_unread, h6.read_unread, h7.read_unread, View.ld_unit_zero (S := S2000x256) hz, View.ld_unit_zero (S := S256x512) hz, View.ld_unit_zero (S := S1x512) hz]

/-- The first point: the sum-of-squares row likewise starts from the zero row. -/
theorem out_A_6 (c : Dev nD) (i : grid0.Coords) (a1 : Memref sig .tc .vmem S2000x256 .f32) (h1 : a1.IsWhole) (a2 : Memref sig .tc .vmem S2000x256 .f32) (h2 : a2.IsWhole) (a3 : Memref sig .tc .vmem S256x512 .bf16) (h3 : a3.IsWhole) (a4 : Memref sig .tc .vmem S1x512 .f32) (h4 : a4.IsWhole) (a5 : Memref sig .tc .vmem S2000x512 .f32) (h5 : a5.IsWhole) (a6 : Memref sig .tc .vmem S1x512 .f32) (h6 : a6.IsWhole) (a7 : Memref sig .tc .vmem S1x512 .f32) (h7 : a7.IsWhole) (hc : cond0_0 i) (x0 : Vec F S2000x256 .f32) (x1 : Vec F S2000x256 .f32) (x2 : Vec F S256x512 .bf16) (x3 : Vec F S1x512 .f32) :
    out0_A_6 c i a1 h1 a2 h2 a3 h3 a4 h4 a5 h5 a6 h6 a7 h7 hc x0 x1 x2 x3 = k0_pay5 x0 x1 x2 x3 k0_pay2 := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x512) hz, View.readCov_unit_zero (S := S1x512) _ hz]
  simp only [View.readAt_eq_ld, h1.read_unread, h2.read_unread, h3.read_unread, h4.read_unread, h6.read_unread, h7.read_unread, View.ld_unit_zero (S := S2000x256) hz, View.ld_unit_zero (S := S256x512) hz, View.ld_unit_zero (S := S1x512) hz]

end Cert.KernelIdeal.K0

end
-- ==== Proof.K0Acc.lean ====
/-
  The first kernel, point by point.  After a grid point the hidden output's buffer holds the rectified hidden block
  of that point's input blocks, and the two statistics rows hold a running value: at the first point the block's
  column sums (and column sums of squares) added to the zero row, at any later point the same added to what the point
  before left.
-/
import proofs.«154781_j36120674959489_1_alg».proof.Proof.K0Pieces

noncomputable section

open Idealize.ShloMosaic Idealize.ShloMosaic.TcCoe Idealize.SL.Sem
open Idealize.ShloMosaic.Pipeline (Dat)

namespace Cert.KernelIdeal.K0

open Cert.KernelIdeal Cert.KernelIdeal.Gen

variable {F : FTy → Type} [FloatOps F]
variable (V : (c : Dev nD) → (b : Ref sig .tc) → Buf (Elt F) ((c : Thread nD τ).loc b))

/-- The hidden output's buffer after a point is that point's hidden block, at the first point and at every other. -/
theorem outs4 (c : Dev nD) (t : Fin cfg0.N) :
    (outsAt0 V c t.val t.isLt).1 = k0_pay3 (F := F) (iblk0 V c 0 t) (iblk0 V c 1 t) (iblk0 V c 2 t) (iblk0 V c 3 t) := by
  by_cases h0 : t.val % 25 = 0
  · rw [outsAt0_A V c t h0]
    dsimp only
    exact out_A_4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)
  · rw [outsAt0_B V c t h0]
    dsimp only
    exact out_B_4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2

/-- The column-sum row after the first point: the zero row plus the block's column sums. -/
theorem outs5_A (c : Dev nD) (t : Fin cfg0.N) (h0 : t.val % 25 = 0) :
    (outsAt0 V c t.val t.isLt).2.1 = k0_pay4 (F := F) (iblk0 V c 0 t) (iblk0 V c 1 t) (iblk0 V c 2 t) (iblk0 V c 3 t) (k0_pay1 (F := F)) := by
  rw [outsAt0_A V c t h0]
  dsimp only
  exact out_A_5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)

/-- The column-sum row after a later point: what the point before left plus the block's column sums. -/
theorem outs5_B (c : Dev nD) (t : Fin cfg0.N) (h0 : ¬t.val % 25 = 0) :
    (outsAt0 V c t.val t.isLt).2.1 = k0_pay4 (F := F) (iblk0 V c 0 t) (iblk0 V c 1 t) (iblk0 V c 2 t) (iblk0 V c 3 t) (outsAt0 V c (t.val - 1) (Nat.lt_of_le_of_lt (Nat.sub_le _ _) t.isLt)).2.1 := by
  rw [outsAt0_B V c t h0]
  dsimp only
  exact out_B_5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2

/-- The sum-of-squares row after the first point. -/
theorem outs6_A (c : Dev nD) (t : Fin cfg0.N) (h0 : t.val % 25 = 0) :
    (outsAt0 V c t.val t.isLt).2.2 = k0_pay5 (F := F) (iblk0 V c 0 t) (iblk0 V c 1 t) (iblk0 V c 2 t) (iblk0 V c 3 t) (k0_pay2 (F := F)) := by
  rw [outsAt0_A V c t h0]
  dsimp only
  exact out_A_6 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)

/-- The sum-of-squares row after a later point. -/
theorem outs6_B (c : Dev nD) (t : Fin cfg0.N) (h0 : ¬t.val % 25 = 0) :
    (outsAt0 V c t.val t.isLt).2.2 = k0_pay5 (F := F) (iblk0 V c 0 t) (iblk0 V c 1 t) (iblk0 V c 2 t) (iblk0 V c 3 t) (outsAt0 V c (t.val - 1) (Nat.lt_of_le_of_lt (Nat.sub_le _ _) t.isLt)).2.2 := by
  rw [outsAt0_B V c t h0]
  dsimp only
  exact out_B_6 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2

end Cert.KernelIdeal.K0

end
-- ==== Proof.LibPlainDot.lean ====
/-
  A plain matrix product's contraction read as a sum over the middle coordinate.  For dimension numbers that contract
  the left operand's second axis against the right operand's first, with no batch axis — an [M,K] by [K,N] product —
  the left operand's index at result position (a, b) and contraction position q is (a, q), the right operand's is
  (q, b), and so the contraction's sum over the one-axis contraction shape is the sum over q of L (a, q) · R (q, b).
  Stated for any such dimension-number record, whatever proof of well-formedness it carries, and for any extents.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat} (d : DotDims ⟨2, ![M, K]⟩ ⟨2, ![K, N]⟩ ⟨2, ![M, N]⟩)

/-- One axis is contracted. -/
theorem contr_rank (hlc : d.lhsContracting = [1]) : d.contr.rank = 1 := by rw [d.rank_contr, hlc]; rfl

/-- Its extent is the middle extent. -/
theorem contr_size (hlc : d.lhsContracting = [1]) :
    d.contr.size ⟨0, by rw [contr_rank d hlc]; exact Nat.one_pos⟩ = K := by
  obtain ⟨lc, rc, ln, rn, lb, rb, wf⟩ := d
  dsimp only at hlc
  subst hlc
  simp [DotDims.contr]

/-- The left operand is read at (row of the result, contraction position). -/
theorem lhs_plain (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (q : Fin K) :
    d.lhsIdx (ix2 a b) ((contrEquiv1 d K (contr_rank d hlc) (contr_size d hlc)).symm q) = ix2 a q := by
  funext ax
  apply Fin.ext
  match ax with
  | ⟨1, _⟩ =>
    have h := DotDims.lhsIdx_val_of_single d (cl := (1 : Fin 2)) hlc (ix2 a b)
      ((contrEquiv1 d K (contr_rank d hlc) (contr_size d hlc)).symm q)
    rw [contrEquiv1_symm_val] at h
    exact h
  | ⟨0, _⟩ =>
    obtain ⟨lc, rc, ln, rn, lb, rb, wf⟩ := d
    dsimp only at hlc hrc hln hrn hlb hrb
    subst hlc hrc hln hrn hlb hrb
    simp [DotDims.lhsIdx]
    rfl

/-- The right operand is read at (contraction position, column of the result). -/
theorem rhs_plain (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (q : Fin K) :
    d.rhsIdx (ix2 a b) ((contrEquiv1 d K (contr_rank d hlc) (contr_size d hlc)).symm q) = ix2 q b := by
  funext ax
  apply Fin.ext
  match ax with
  | ⟨0, _⟩ =>
    have h := DotDims.rhsIdx_val_of_single d (cr := (0 : Fin 2)) hrc (ix2 a b)
      ((contrEquiv1 d K (contr_rank d hlc) (contr_size d hlc)).symm q)
    rw [contrEquiv1_symm_val] at h
    exact h
  | ⟨1, _⟩ =>
    obtain ⟨lc, rc, ln, rn, lb, rb, wf⟩ := d
    dsimp only at hlc hrc hln hrn hlb hrb
    subst hlc hrc hln hrn hlb hrb
    simp [DotDims.rhsIdx]
    rfl

/-- The contraction's sum is the sum over the middle coordinate. -/
theorem plain_sum {β : Type*} [AddCommMonoid β] (hlc : d.lhsContracting = [1]) (hrc : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → β) (a : Fin M) (b : Fin N) :
    ∑ k : d.contr.Idx, f (d.lhsIdx (ix2 a b) k) (d.rhsIdx (ix2 a b) k) = ∑ q : Fin K, f (ix2 a q) (ix2 q b) := by
  rw [← Equiv.sum_comp (contrEquiv1 d K (contr_rank d hlc) (contr_size d hlc)).symm]
  refine Finset.sum_congr rfl fun q _ => ?_
  rw [lhs_plain d hlc hrc hln hrn hlb hrb a b q, rhs_plain d hlc hrc hln hrn hlb hrb a b q]

end Cert.LibPlainDot

end
-- ==== Proof.Spec.lean ====
/-
  The mathematics of the certificate, with no program in sight: what the two-layer network computes, index by index,
  over the extended reals.  A node's aggregated feature row is added to its own; the sum meets the first weight matrix
  and bias and is floored at zero (`hid`); each hidden column is then normalised by its mean and variance over all
  50000 nodes, scaled and shifted, and meets the second weight matrix and bias (`outv`).
  The two programs differ in how they obtain the column statistics.  One accumulates the column sum and the column sum
  of squares and forms  E[h²] − (E[h])²  (`meanK`, `varK`); the other forms the mean first and then the mean of the
  squared deviations  E[(h − E[h])²]  (`meanR`, `varR`, whose divisor is written 50000 − 0).  The two variances are
  the same real number whenever every hidden value is finite; at an infinite value they differ, which is why
  finiteness of the inputs is used.
-/
import Idealize.ShloMosaic.PureOps.Ideal
import Idealize.ShloMosaic.Lib.ValueIdx

noncomputable section

open scoped BigOperators

namespace Cert.Spec

open Idealize.ShloMosaic Idealize.ShloMosaic.ValueIdx

/-- An extended real that is a real number. -/
def IsReal (x : EReal) : Prop := ∃ r : ℝ, x = (r : EReal)

/-- The pattern of `+0.0`. -/
abbrev zero : EReal := Ideal.ofBits .f32 0x00000000#32
/-- The pattern of `50000.0`, the number of nodes. -/
abbrev c50000 : EReal := Ideal.ofBits .f32 0x47435000#32
/-- The pattern of the variance's guard `1e-5` as f32 (the same word in both programs: never evaluated). -/
abbrev eps : EReal := Ideal.ofBits .f32 0x3727C5AC#32

/-- The hidden layer: row `i` of `x + a` against column `k` of `w`, plus the bias, floored at zero. -/
def hid (x a : (⟨2, ![50000, 256]⟩ : Shape).Idx → EReal) (w : (⟨2, ![256, 512]⟩ : Shape).Idx → EReal)
    (b : Fin 512 → EReal) (i : Fin 50000) (k : Fin 512) : EReal :=
  max (∑ j : Fin 256, (x (ix2 i j) + a (ix2 i j)) * w (ix2 j k) + b k) zero

/-- A hidden column's sum over all nodes. -/
def csum (h : Fin 50000 → Fin 512 → EReal) (k : Fin 512) : EReal := ∑ i : Fin 50000, h i k
/-- A hidden column's sum of squares over all nodes. -/
def csumsq (h : Fin 50000 → Fin 512 → EReal) (k : Fin 512) : EReal := ∑ i : Fin 50000, h i k * h i k

/-- The column mean as the accumulating program forms it: the sum over 50000. -/
def meanK (h : Fin 50000 → Fin 512 → EReal) (k : Fin 512) : EReal := Ideal.div (csum h k) c50000
/-- The column variance as the accumulating program forms it: mean of squares minus squared mean. -/
def varK (h : Fin 50000 → Fin 512 → EReal) (k : Fin 512) : EReal :=
  Ideal.div (csumsq h k) c50000 - meanK h k * meanK h k

/-- The column mean as the two-pass program forms it: a sum started from zero, over 50000. -/
def meanR (h : Fin 50000 → Fin 512 → EReal) (k : Fin 512) : EReal := Ideal.div (zero + csum h k) c50000
/-- The column variance as the two-pass program forms it: the mean of the squared deviations from the mean, the
    divisor written as 50000 minus zero degrees of freedom. -/
def varR (h : Fin 50000 → Fin 512 → EReal) (k : Fin 512) : EReal :=
  Ideal.div (zero + ∑ i : Fin 50000, (h i k - meanR h k) * (h i k - meanR h k)) (c50000 - (((0 : ℤ) : ℝ) : EReal))

/-- The output: the normalised, scaled and shifted hidden row against column `k` of the second weight matrix, plus
    the second bias. -/
def outv (h : Fin 50000 → Fin 512 → EReal) (mu va g bt : Fin 512 → EReal)
    (w2 : (⟨2, ![512, 512]⟩ : Shape).Idx → EReal) (b2 : Fin 512 → EReal) (i : Fin 50000) (k : Fin 512) : EReal :=
  ∑ j : Fin 512, ((h i j - mu j) * Ideal.rsqrt (va j + eps) * g j + bt j) * w2 (ix2 j k) + b2 k

end Cert.Spec

end
-- ==== Proof.K0Pay.lean ====
/-
  The first kernel's arithmetic at one element, over the extended reals.  An element (r, k) of the hidden block is
  row r of the sum of the two input blocks against column k of the weight block, plus the bias row at k, floored at
  zero.  The column-sum row at k becomes what it held plus the hidden block's column k summed over its 2000 rows;
  the sum-of-squares row likewise with each hidden value squared.
-/
import proofs.«154781_j36120674959489_1_alg».proof.Proof.Gen.KernelIdeal.Skeleton
import proofs.«154781_j36120674959489_1_alg».proof.Proof.LibPlainDot
import proofs.«154781_j36120674959489_1_alg».proof.Proof.Spec
import Idealize.ShloMosaic.Lib.ValueLayout
import Idealize.ShloMosaic.Lib.Pipeline.Value
import Idealize.ShloMosaic.PureOps.Ideal.Laws

noncomputable section

open scoped BigOperators

namespace Cert.KernelIdeal.K0I

open Idealize.ShloMosaic Idealize.ShloMosaic.ValueIdx Cert.KernelIdeal Cert.KernelIdeal.Gen

/-- The hidden block at (r, k). -/
theorem pay3_apply (x0 x1 : FVec Ideal S2000x256 .f32) (x2 : FVec Ideal S256x512 .bf16) (x3 : FVec Ideal S1x512 .f32)
    (r : Fin 2000) (k : Fin 512) :
    k0_pay3 (F := Ideal) x0 x1 x2 x3 (ix2 r k)
      = max (∑ j : Fin 256, (x0 (ix2 r j) + x1 (ix2 r j)) * x2 (ix2 j k) + x3 (ix2 (0 : Fin 1) k)) Cert.Spec.zero := by
  unfold k0_pay3
  rw [maximumf_apply, addf_apply, broadcast_apply, broadcastTo_1b_ab_apply, shapeCast_self, shapeCast_self, shapeCast_self]
  refine congrArg₂ max (congrArg (· + x3 (ix2 (0 : Fin 1) k)) ?_) rfl
  refine (Ideal.matmul_constant_zero_apply dot_S2000x256_S256x512_S2000x512_1_0_0_1_n_n none _ x2 (ix2 r k)).trans ?_
  exact Cert.LibPlainDot.plain_sum dot_S2000x256_S256x512_S2000x512_1_0_0_1_n_n rfl rfl rfl rfl rfl rfl
    (fun l rr => (x0 l + x1 l) * x2 rr) r k

/-- The row the statistics start from is zero everywhere. -/
theorem pay1_apply (k : Fin 512) : k0_pay1 (F := Ideal) (ix2 (0 : Fin 1) k) = Cert.Spec.zero := rfl
theorem pay2_apply (k : Fin 512) : k0_pay2 (F := Ideal) (ix2 (0 : Fin 1) k) = Cert.Spec.zero := rfl

/-- A column of a [2000, 512] block summed over its rows, as the lane reduction computes it. -/
theorem colsum_apply (v : FVec Ideal S2000x512 .f32) (k : Fin 512) :
    multiReduction .add [0] S512 v 0x00000000#32 reduces_S2000x512_S512 (.inl rfl) rfl (ix1 k)
      = ∑ r : Fin 2000, v (ix2 r k) := by
  refine (Ideal.multiReduction_add_single v 0x00000000#32 reduces_S2000x512_S512 (.inl rfl) rfl (ix1 k)).trans ?_
  refine Finset.sum_congr rfl fun r _ => congrArg v ?_
  funext a
  match a with
  | ⟨0, _⟩ => rfl
  | ⟨1, _⟩ => rfl

/-- The column-sum row at k after one more block. -/
theorem pay4_apply (x0 x1 : FVec Ideal S2000x256 .f32) (x2 : FVec Ideal S256x512 .bf16) (x3 acc : FVec Ideal S1x512 .f32)
    (k : Fin 512) :
    k0_pay4 (F := Ideal) x0 x1 x2 x3 acc (ix2 (0 : Fin 1) k)
      = acc (ix2 (0 : Fin 1) k) + ∑ r : Fin 2000, k0_pay3 (F := Ideal) x0 x1 x2 x3 (ix2 r k) := by
  unfold k0_pay4
  rw [addf_apply, shapeCast_self, shapeCast_a_1a_apply, colsum_apply]

/-- The sum-of-squares row at k after one more block. -/
theorem pay5_apply (x0 x1 : FVec Ideal S2000x256 .f32) (x2 : FVec Ideal S256x512 .bf16) (x3 acc : FVec Ideal S1x512 .f32)
    (k : Fin 512) :
    k0_pay5 (F := Ideal) x0 x1 x2 x3 acc (ix2 (0 : Fin 1) k)
      = acc (ix2 (0 : Fin 1) k)
        + ∑ r : Fin 2000, k0_pay3 (F := Ideal) x0 x1 x2 x3 (ix2 r k) * k0_pay3 (F := Ideal) x0 x1 x2 x3 (ix2 r k) := by
  unfold k0_pay5
  rw [addf_apply, shapeCast_self, shapeCast_a_1a_apply, colsum_apply]
  rfl

end Cert.KernelIdeal.K0I

end
-- ==== Proof.SpecLaws.lean ====
/-
  Laws of the index-level mathematics: the constants as real numbers, closure of "is a real number" under the
  operations the hidden layer uses, the two ways of forming a column's mean and variance agree on real data, and
  a sum over 50000 nodes is the sum over 25 blocks of the sums over each block's 2000 nodes.
-/
import proofs.«154781_j36120674959489_1_alg».proof.Proof.Spec

noncomputable section

open scoped BigOperators

namespace Cert.Spec

open Idealize.ShloMosaic Idealize.ShloMosaic.ValueIdx

/-! ### The constants -/

/-- The pattern of `+0.0` denotes `0`. -/
theorem ofBits_zero : (zero : EReal) = 0 := by
  simp [Ideal.ofBits, Ideal.ieee]

/-- The pattern `0x47435000` denotes the real `50000`: `(2^23 + 0x435000) · 2^(142 − 127 − 23)`. -/
theorem c50000_eq : (c50000 : EReal) = ((50000 : ℝ) : EReal) := by
  simp [Ideal.ofBits, Ideal.ieee, -EReal.coe_mul]; norm_num

/-! ### Real values are closed under the arithmetic used -/

theorem IsReal.coe (r : ℝ) : IsReal (r : EReal) := ⟨r, rfl⟩

theorem IsReal.zero : IsReal (0 : EReal) := ⟨0, rfl⟩

theorem IsReal.ofBits_zero : IsReal Cert.Spec.zero := by rw [Cert.Spec.ofBits_zero]; exact IsReal.zero

theorem IsReal.c50000 : IsReal Cert.Spec.c50000 := by rw [c50000_eq]; exact IsReal.coe _

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The hidden layer of real data is real. -/
theorem hid_isReal (x a : (⟨2, ![50000, 256]⟩ : Shape).Idx → EReal) (w : (⟨2, ![256, 512]⟩ : Shape).Idx → EReal)
    (b : Fin 512 → EReal) (hx : ∀ i, IsReal (x i)) (ha : ∀ i, IsReal (a i)) (hw : ∀ i, IsReal (w i))
    (hb : ∀ k, IsReal (b k)) : ∀ i k, IsReal (hid x a w b i k) := by
  intro i k
  unfold hid
  exact IsReal.max (IsReal.add (IsReal.sum _ _ fun j _ => ((hx _).add (ha _)).mul (hw _)) (hb k)) IsReal.ofBits_zero

/-- A scatter-add of real updates into a real operand is real. -/
theorem scatterAdd_isReal {s si su : Shape} (d : ScatterDims s si su) {w : Nat} (x : s.Idx → EReal) (idx : IVec si w)
    (upd : su.Idx → EReal) (hx : ∀ i, IsReal (x i)) (hu : ∀ j, IsReal (upd j)) :
    ∀ i, IsReal (Ideal.hostScatterAdd d x idx upd i) := by
  intro i
  unfold Ideal.hostScatterAdd
  exact (hx i).add (IsReal.sum _ _ fun j _ => hu j)

/-! ### Mean and variance -/

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum started from zero is the sum: the two means are the same expression. -/
theorem mean_eq (h : Fin 50000 → Fin 512 → EReal) : meanK h = meanR h := by
  funext k
  unfold meanK meanR
  rw [ofBits_zero, zero_add]

/-- The divisor `50000 − 0` is `50000`. -/
theorem divisor_eq : (c50000 - (((0 : ℤ) : ℝ) : EReal)) = ((50000 : ℝ) : EReal) := by
  rw [c50000_eq, ← EReal.coe_sub]; norm_num

/-- On real data  E[h²] − (E[h])² = E[(h − E[h])²]:  expand the square and use  ∑ (h − μ) = 0. -/
theorem var_eq (h : Fin 50000 → Fin 512 → EReal) (hr : ∀ i k, IsReal (h i k)) : varK h = varR h := by
  funext k
  choose r hr using fun i => hr i k
  have hN : (50000 : ℝ) ≠ 0 := by norm_num
  unfold varK varR meanK meanR csum csumsq
  rw [divisor_eq, ofBits_zero, c50000_eq]
  simp only [hr, zero_add]
  simp only [Ideal.div_coe hN, ← EReal.coe_mul, ← coe_sum, ← EReal.coe_sub]
  congr 1
  set μ : ℝ := (∑ i : Fin 50000, r i) * (1 / 50000) with hμ
  have key : ∑ i : Fin 50000, (r i - μ) * (r i - μ)
      = (∑ i : Fin 50000, r i * r i) - 2 * μ * (∑ i : Fin 50000, r i) + 50000 * (μ * μ) := by
    have e : ∀ i, (r i - μ) * (r i - μ) = r i * r i - 2 * μ * r i + μ * μ := fun i => by ring
    simp only [e, Finset.sum_add_distrib, Finset.sum_sub_distrib, ← Finset.mul_sum, Finset.sum_const,
      Finset.card_univ, Fintype.card_fin, nsmul_eq_mul]
    push_cast; ring
  rw [key, hμ]
  ring

/-! ### A sum over the nodes, block by block -/

/-- Node `2000 t + r` is the `r`-th node of block `t`. -/
def blockEquiv : Fin 25 × Fin 2000 ≃ Fin 50000 where
  toFun p := ⟨2000 * p.1.val + p.2.val, by omega⟩
  invFun i := (⟨i.val / 2000, by omega⟩, ⟨i.val % 2000, by omega⟩)
  left_inv p := by
    obtain ⟨t, r⟩ := p
    ext <;> simp <;> omega
  right_inv i := by
    ext; simp; omega

/-- The sum over all nodes is the sum over the blocks of each block's sum. -/
theorem regroup {M : Type*} [AddCommMonoid M] (f : Fin 50000 → M) :
    ∑ t : Fin 25, ∑ r : Fin 2000, f ⟨2000 * t.val + r.val, by omega⟩ = ∑ i : Fin 50000, f i := by
  rw [← Fintype.sum_prod_type' (f := fun (t : Fin 25) (r : Fin 2000) => f ⟨2000 * t.val + r.val, by omega⟩)]
  exact Fintype.sum_equiv blockEquiv _ _ (fun p => rfl)

end Cert.Spec

end
-- ==== Proof.K0Hidden.lean ====
/-
  The first kernel's hidden output as ONE array.  At grid point t the two row-blocked inputs are read at rows
  2000·t … 2000·t + 1999, the weight and the bias row are read whole, and the block the point writes back is rows
  2000·t … 2000·t + 1999 of the hidden layer of the whole arrays.  The 25 blocks tile the 50000 rows, so after the
  run the hidden array holds the hidden layer everywhere.
-/
import proofs.«154781_j36120674959489_1_alg».proof.Proof.K0Acc
import proofs.«154781_j36120674959489_1_alg».proof.Proof.K0Pay
import proofs.«154781_j36120674959489_1_alg».proof.Proof.SpecLaws

noncomputable section

open scoped BigOperators
open Idealize.ShloMosaic Idealize.ShloMosaic.TcCoe Idealize.SL.Sem Idealize.ShloMosaic.ValueIdx
open Idealize.ShloMosaic.Pipeline (Dat)

namespace Cert.KernelIdeal.K0I

open Cert.KernelIdeal Cert.KernelIdeal.Gen

variable (V : (c : Dev nD) → (b : Ref sig .tc) → Buf (Elt Ideal) ((c : Thread nD τ).loc b))

/-- The hidden layer of the arrays as the region finds them: the node features, the aggregated features, the first
    weight matrix and the bias row. -/
def H (c : Dev nD) : Fin 50000 → Fin 512 → EReal :=
  Cert.Spec.hid (V c main_arg0) (V c main_v13) (V c main_v14) (fun k => V c main_v16 (ix2 (0 : Fin 1) k))

/-- The index maps over the grid: the row-blocked windows sit at block row t, everything else at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- A row of the 25 × 2000 tiling is a row of the array. -/
theorem row_lt (t : Fin cfg0.N) (r : Fin 2000) : 2000 * t.val + r.val < 50000 := by
  have hN : cfg0.N = 25 := N_0
  have := t.isLt
  have := r.isLt
  omega

/-- The node-feature block at point t is rows 2000·t … of the node features. -/
theorem blk0 (c : Dev nD) (t : Fin cfg0.N) (r : Fin 2000) (j : Fin 256) :
    iblk0 V c 0 t (ix2 r j) = V c main_arg0 (ix2 ⟨2000 * t.val + r.val, row_lt t r⟩ j) := by
  unfold iblk0
  rw [View.read_apply]
  show V c main_arg0 (((cfg0.win 0).blk t).view.emb (ix2 r j)) = _
  refine congrArg (V c main_arg0) ?_
  funext a
  apply Fin.ext
  obtain ⟨e0, e1, -⟩ := idx_facts t
  match a with
  | ⟨0, _⟩ => show win0_0.index t (0 : Fin 2) * 2000 + 1 * r.val = 2000 * t.val + r.val; rw [e0]; omega
  | ⟨1, _⟩ => show win0_0.index t (1 : Fin 2) * 256 + 1 * j.val = j.val; rw [e1]; omega

/-- The aggregated-feature block at point t is the same rows of the aggregated features. -/
theorem blk1 (c : Dev nD) (t : Fin cfg0.N) (r : Fin 2000) (j : Fin 256) :
    iblk0 V c 1 t (ix2 r j) = V c main_v13 (ix2 ⟨2000 * t.val + r.val, row_lt t r⟩ j) := by
  unfold iblk0
  rw [View.read_apply]
  show V c main_v13 (((cfg0.win 1).blk t).view.emb (ix2 r j)) = _
  refine congrArg (V c main_v13) ?_
  funext a
  apply Fin.ext
  obtain ⟨-, -, e0, e1, -⟩ := idx_facts t
  match a with
  | ⟨0, _⟩ => show win0_1.index t (0 : Fin 2) * 2000 + 1 * r.val = 2000 * t.val + r.val; rw [e0]; omega
  | ⟨1, _⟩ => show win0_1.index t (1 : Fin 2) * 256 + 1 * j.val = j.val; rw [e1]; omega

/-- The weight block is the whole weight matrix at every point. -/
theorem blk2 (c : Dev nD) (t : Fin cfg0.N) (j : Fin 256) (k : Fin 512) :
    iblk0 V c 2 t (ix2 j k) = V c main_v14 (ix2 j k) := by
  unfold iblk0
  rw [View.read_apply]
  show V c main_v14 (((cfg0.win 2).blk t).view.emb (ix2 j k)) = _
  refine congrArg (V c main_v14) ?_
  funext a
  apply Fin.ext
  obtain ⟨-, -, -, -, e0, e1, -⟩ := idx_facts t
  match a with
  | ⟨0, _⟩ => show win0_2.index t (0 : Fin 2) * 256 + 1 * j.val = j.val; rw [e0]; omega
  | ⟨1, _⟩ => show win0_2.index t (1 : Fin 2) * 512 + 1 * k.val = k.val; rw [e1]; omega

/-- The bias block is the whole bias row at every point. -/
theorem blk3 (c : Dev nD) (t : Fin cfg0.N) (k : Fin 512) :
    iblk0 V c 3 t (ix2 (0 : Fin 1) k) = V c main_v16 (ix2 (0 : Fin 1) k) := by
  unfold iblk0
  rw [View.read_apply]
  show V c main_v16 (((cfg0.win 3).blk t).view.emb (ix2 (0 : Fin 1) k)) = _
  refine congrArg (V c main_v16) ?_
  funext a
  apply Fin.ext
  obtain ⟨-, -, -, -, -, -, e0, e1, -⟩ := idx_facts t
  match a with
  | ⟨0, _⟩ => show win0_3.index t (0 : Fin 2) * 1 + 1 * 0 = 0; rw [e0]
  | ⟨1, _⟩ => show win0_3.index t (1 : Fin 2) * 512 + 1 * k.val = k.val; rw [e1]; omega

/-- The hidden block at point t, at (r, k), is the hidden layer at (2000·t + r, k). -/
theorem hblk_apply (c : Dev nD) (t : Fin cfg0.N) (r : Fin 2000) (k : Fin 512) :
    k0_pay3 (F := Ideal) (iblk0 V c 0 t) (iblk0 V c 1 t) (iblk0 V c 2 t) (iblk0 V c 3 t) (ix2 r k)
      = H V c ⟨2000 * t.val + r.val, row_lt t r⟩ k := by
  refine (pay3_apply (iblk0 V c 0 t) (iblk0 V c 1 t) (iblk0 V c 2 t) (iblk0 V c 3 t) r k).trans ?_
  unfold H Cert.Spec.hid
  refine congrArg₂ max (congrArg₂ (· + ·) (Finset.sum_congr rfl fun j _ => ?_) (blk3 V c t k)) rfl
  rw [blk0, blk1, blk2]

/-- What point t writes back is block t of the hidden layer. -/
theorem flushed4_eq (c : Dev nD) (t : Fin cfg0.N) :
    (dat0 V c).flushed 4 t = ((cfg0.win 4).blk t).view.read (Elt Ideal) (fun i => H V c (i 0) (i 1)) := by
  show (cfg0.win 4).cut (grid0.coords t) ((dat0 V c).after 4 t) = _
  rw [after0_4, Cert.KernelIdeal.K0.outs4]
  funext y
  obtain ⟨r, k, rfl⟩ : ∃ (r : Fin 2000) (k : Fin 512), y = ix2 r k := ⟨y 0, y 1, eq_ix2 y⟩
  rw [View.read_apply]
  refine (hblk_apply V c t r k).trans ?_
  obtain ⟨-, -, -, -, -, -, -, -, e0, e1, -⟩ := idx_facts t
  show H V c ⟨2000 * t.val + r.val, row_lt t r⟩ k
    = H V c ((((cfg0.win 4).blk t).view.emb (ix2 r k)) 0) ((((cfg0.win 4).blk t).view.emb (ix2 r k)) 1)
  congr 1
  · apply Fin.ext
    show 2000 * t.val + r.val = win0_4.index t (0 : Fin 2) * 2000 + 1 * r.val
    rw [e0]; omega
  · apply Fin.ext
    show k.val = win0_4.index t (1 : Fin 2) * 512 + 1 * k.val
    rw [e1]; omega

/-- An index of the hidden array is in point t's block iff each coordinate is in the block's range. -/
theorem mem_blk4 (t : Fin cfg0.N) (i : S50000x512.Idx) :
    i ∈ ((cfg0.win 4).blk t).view.set ↔ ∀ a : Fin 2, win0_4.index t a * S2000x512.size a ≤ (i a).val
      ∧ (i a).val < win0_4.index t a * S2000x512.size a + S2000x512.size a := by
  show i ∈ ((View.whole main_v20_0).slice (win0_4.rect t)).set ↔ _
  rw [View.set_slice_whole, Rect.mem_set_unit]
  exact Iff.rfl

/-- After the run the hidden array holds the hidden layer everywhere: row i lies in block i / 2000. -/
theorem final4 (c : Dev nD) : (dat0 V c).arrAt 4 cfg0.N = fun i => H V c (i 0) (i 1) :=
  (dat0 V c).arrAt_eq_of_cover 4 _ (fun t _ => flushed4_eq V c t) fun i => by
    have hN : cfg0.N = 25 := N_0
    have hi0 : (i 0).val < 50000 := (i 0).isLt
    have hi1 : (i 1).val < 512 := (i 1).isLt
    refine ⟨⟨(i 0).val / 2000, by omega⟩, flush0_4 _, ?_⟩
    rw [mem_blk4]
    obtain ⟨-, -, -, -, -, -, -, -, e0, e1, -⟩ := idx_facts ⟨(i 0).val / 2000, by omega⟩
    intro a
    match a with
    | ⟨0, _⟩ =>
      show win0_4.index _ (0 : Fin 2) * 2000 ≤ (i 0).val ∧ (i 0).val < win0_4.index _ (0 : Fin 2) * 2000 + 2000
      rw [e0]; dsimp only; omega
    | ⟨1, _⟩ =>
      show win0_4.index _ (1 : Fin 2) * 512 ≤ (i 1).val ∧ (i 1).val < win0_4.index _ (1 : Fin 2) * 512 + 512
      rw [e1]; omega

end Cert.KernelIdeal.K0I

end
-- ==== Proof.K0Stats.lean ====
/-
  The first kernel's two statistics rows.  The column-sum row is reset at the first grid point and has each block's
  column sums added at every point, so after point n it holds, at column k, zero plus the sums over the rows of blocks
  0 … n of the hidden layer's column k; the sum-of-squares row likewise with squares.  Both rows are written back once,
  after the last point, and their block is the whole row: so after the run they hold the hidden layer's column sums and
  column sums of squares over all 50000 rows, the 25 blocks of 2000 rows regrouped into one sum.
-/
import proofs.«154781_j36120674959489_1_alg».proof.Proof.K0Hidden

noncomputable section

open scoped BigOperators
open Idealize.ShloMosaic Idealize.ShloMosaic.TcCoe Idealize.SL.Sem Idealize.ShloMosaic.ValueIdx
open Idealize.ShloMosaic.Pipeline (Dat)

namespace Cert.KernelIdeal.K0I

open Cert.KernelIdeal Cert.KernelIdeal.Gen

variable (V : (c : Dev nD) → (b : Ref sig .tc) → Buf (Elt Ideal) ((c : Thread nD τ).loc b))

/-- Column k of the hidden layer summed over the rows of block s (nothing past the grid). -/
def blkSum (c : Dev nD) (s : ℕ) (k : Fin 512) : EReal :=
  if h : s < 25 then ∑ r : Fin 2000, H V c ⟨2000 * s + r.val, by have := r.isLt; omega⟩ k else 0

/-- The same with each hidden value squared. -/
def blkSumSq (c : Dev nD) (s : ℕ) (k : Fin 512) : EReal :=
  if h : s < 25 then ∑ r : Fin 2000, H V c ⟨2000 * s + r.val, by have := r.isLt; omega⟩ k
    * H V c ⟨2000 * s + r.val, by have := r.isLt; omega⟩ k else 0

/-- The last grid point. -/
theorem h24 : 24 < cfg0.N := by have hN : cfg0.N = 25 := N_0; omega

/-- After point n the column-sum row at k is zero plus the column sums of blocks 0 … n. -/
theorem run5 (c : Dev nD) : ∀ (n : ℕ) (h : n < cfg0.N) (k : Fin 512),
    (outsAt0 V c n h).2.1 (ix2 (0 : Fin 1) k) = Cert.Spec.zero + ∑ s ∈ Finset.range (n + 1), blkSum V c s k
  | 0, h, k => by
    refine (congrFun (Cert.KernelIdeal.K0.outs5_A V c ⟨0, h⟩ rfl) (ix2 (0 : Fin 1) k)).trans ?_
    refine (pay4_apply (iblk0 V c 0 ⟨0, h⟩) (iblk0 V c 1 ⟨0, h⟩) (iblk0 V c 2 ⟨0, h⟩) (iblk0 V c 3 ⟨0, h⟩) k0_pay1 k).trans ?_
    rw [Finset.sum_range_one]
    refine congrArg₂ (· + ·) (pay1_apply k) ?_
    unfold blkSum
    rw [dif_pos (by omega : 0 < 25)]
    exact Finset.sum_congr rfl fun r _ => hblk_apply V c ⟨0, h⟩ r k
  | n + 1, h, k => by
    have hN : cfg0.N = 25 := N_0
    have hB : ¬(⟨n + 1, h⟩ : Fin cfg0.N).val % 25 = 0 := by dsimp only; omega
    refine (congrFun (Cert.KernelIdeal.K0.outs5_B V c ⟨n + 1, h⟩ hB) (ix2 (0 : Fin 1) k)).trans ?_
    refine (pay4_apply (iblk0 V c 0 ⟨n + 1, h⟩) (iblk0 V c 1 ⟨n + 1, h⟩) (iblk0 V c 2 ⟨n + 1, h⟩) (iblk0 V c 3 ⟨n + 1, h⟩) _ k).trans ?_
    rw [Finset.sum_range_succ _ (n + 1), ← add_assoc]
    refine congrArg₂ (· + ·) (run5 c n (Nat.lt_of_succ_lt h) k) ?_
    unfold blkSum
    rw [dif_pos (by omega : n + 1 < 25)]
    exact Finset.sum_congr rfl fun r _ => hblk_apply V c ⟨n + 1, h⟩ r k

/-- After point n the sum-of-squares row at k is zero plus the column sums of squares of blocks 0 … n. -/
theorem run6 (c : Dev nD) : ∀ (n : ℕ) (h : n < cfg0.N) (k : Fin 512),
    (outsAt0 V c n h).2.2 (ix2 (0 : Fin 1) k) = Cert.Spec.zero + ∑ s ∈ Finset.range (n + 1), blkSumSq V c s k
  | 0, h, k => by
    refine (congrFun (Cert.KernelIdeal.K0.outs6_A V c ⟨0, h⟩ rfl) (ix2 (0 : Fin 1) k)).trans ?_
    refine (pay5_apply (iblk0 V c 0 ⟨0, h⟩) (iblk0 V c 1 ⟨0, h⟩) (iblk0 V c 2 ⟨0, h⟩) (iblk0 V c 3 ⟨0, h⟩) k0_pay2 k).trans ?_
    rw [Finset.sum_range_one]
    refine congrArg₂ (· + ·) (pay2_apply k) ?_
    unfold blkSumSq
    rw [dif_pos (by omega : 0 < 25)]
    exact Finset.sum_congr rfl fun r _ => by rw [hblk_apply V c ⟨0, h⟩ r k]
  | n + 1, h, k => by
    have hN : cfg0.N = 25 := N_0
    have hB : ¬(⟨n + 1, h⟩ : Fin cfg0.N).val % 25 = 0 := by dsimp only; omega
    refine (congrFun (Cert.KernelIdeal.K0.outs6_B V c ⟨n + 1, h⟩ hB) (ix2 (0 : Fin 1) k)).trans ?_
    refine (pay5_apply (iblk0 V c 0 ⟨n + 1, h⟩) (iblk0 V c 1 ⟨n + 1, h⟩) (iblk0 V c 2 ⟨n + 1, h⟩) (iblk0 V c 3 ⟨n + 1, h⟩) _ k).trans ?_
    rw [Finset.sum_range_succ _ (n + 1), ← add_assoc]
    refine congrArg₂ (· + ·) (run6 c n (Nat.lt_of_succ_lt h) k) ?_
    unfold blkSumSq
    rw [dif_pos (by omega : n + 1 < 25)]
    exact Finset.sum_congr rfl fun r _ => by rw [hblk_apply V c ⟨n + 1, h⟩ r k]

/-- The one write-back of the column-sum row, at the last point, writes what that point left: the block is the whole row. -/
theorem flushed5_eq (c : Dev nD) (t : Fin cfg0.N) (hf : (cfg0.win 5).flush t = true) :
    (dat0 V c).flushed 5 t = ((cfg0.win 5).blk t).view.read (Elt Ideal) ((outsAt0 V c 24 h24).2.1) := by
  have hN : cfg0.N = 25 := N_0
  have h24' : t.val = 24 := by have := (flush0_5 t).mp hf; have := t.isLt; omega
  obtain rfl : t = ⟨24, h24⟩ := Fin.ext h24'
  show (cfg0.win 5).cut (grid0.coords ⟨24, h24⟩) ((dat0 V c).after 5 ⟨24, h24⟩) = _
  rw [after0_5]
  obtain ⟨-, -, -, -, -, -, -, -, -, -, e50, e51, e60, e61⟩ := idx_facts ⟨24, h24⟩
  have hz' : (fun a => win0_5.index ⟨24, h24⟩ a * main_v20_1.ty.shape.size a) = fun _ => 0 := funext fun a => by
    match a with
    | ⟨0, _⟩ => show win0_5.index ⟨24, h24⟩ (0 : Fin 2) * 1 = 0; rw [e50]
    | ⟨1, _⟩ => show win0_5.index ⟨24, h24⟩ (1 : Fin 2) * 512 = 0; rw [e51]
  exact (Memref.read_access_unit_zero (Elt Ideal) main_v20_1 hz' (fun a => by rw [congrFun hz' a]; simp) _).symm

/-- So after the run the column-sum row holds what the last point left. -/
theorem arr5 (c : Dev nD) : (dat0 V c).arrAt 5 cfg0.N = (outsAt0 V c 24 h24).2.1 :=
  (dat0 V c).arrAt_eq_of_cover 5 _ (flushed5_eq V c) fun i =>
    ⟨⟨24, h24⟩, (flush0_5 ⟨24, h24⟩).mpr rfl, by
      show i ∈ ((View.whole main_v20_1).slice (win0_5.rect ⟨24, h24⟩)).set
      rw [View.set_slice_whole, Rect.mem_set_unit]
      obtain ⟨-, -, -, -, -, -, -, -, -, -, e50, e51, e60, e61⟩ := idx_facts ⟨24, h24⟩
      have hi0 : (i 0 : Nat) < 1 := (i 0).isLt
      have hi1 : (i 1 : Nat) < 512 := (i 1).isLt
      intro a
      match a with
      | ⟨0, _⟩ =>
        show win0_5.index ⟨24, h24⟩ (0 : Fin 2) * 1 ≤ (i 0 : Nat) ∧ (i 0 : Nat) < win0_5.index ⟨24, h24⟩ (0 : Fin 2) * 1 + 1
        rw [e50]; omega
      | ⟨1, _⟩ =>
        show win0_5.index ⟨24, h24⟩ (1 : Fin 2) * 512 ≤ (i 1 : Nat) ∧ (i 1 : Nat) < win0_5.index ⟨24, h24⟩ (1 : Fin 2) * 512 + 512
        rw [e51]; omega⟩

/-- The column-sum row after the run, at k, is the hidden layer's column k summed over all 50000 rows: 25 blocks of 2000. -/
theorem final5 (c : Dev nD) (k : Fin 512) :
    (dat0 V c).arrAt 5 cfg0.N (ix2 (0 : Fin 1) k) = Cert.Spec.csum (H V c) k := by
  refine (congrFun (arr5 V c) (ix2 (0 : Fin 1) k)).trans ?_
  refine (run5 V c 24 h24 k).trans ?_
  show (Cert.Spec.zero + ∑ s ∈ Finset.range (24 + 1), blkSum V c s k : EReal) = Cert.Spec.csum (H V c) k
  rw [Cert.Spec.ofBits_zero, zero_add, Finset.sum_range]
  unfold Cert.Spec.csum
  rw [← Cert.Spec.regroup]
  refine Finset.sum_congr rfl fun s _ => ?_
  unfold blkSum
  rw [dif_pos s.isLt]

/-- The one write-back of the sum-of-squares row, at the last point, writes what that point left: the block is the whole row. -/
theorem flushed6_eq (c : Dev nD) (t : Fin cfg0.N) (hf : (cfg0.win 6).flush t = true) :
    (dat0 V c).flushed 6 t = ((cfg0.win 6).blk t).view.read (Elt Ideal) ((outsAt0 V c 24 h24).2.2) := by
  have hN : cfg0.N = 25 := N_0
  have h24' : t.val = 24 := by have := (flush0_6 t).mp hf; have := t.isLt; omega
  obtain rfl : t = ⟨24, h24⟩ := Fin.ext h24'
  show (cfg0.win 6).cut (grid0.coords ⟨24, h24⟩) ((dat0 V c).after 6 ⟨24, h24⟩) = _
  rw [after0_6]
  obtain ⟨-, -, -, -, -, -, -, -, -, -, e50, e51, e60, e61⟩ := idx_facts ⟨24, h24⟩
  have hz' : (fun a => win0_6.index ⟨24, h24⟩ a * main_v20_2.ty.shape.size a) = fun _ => 0 := funext fun a => by
    match a with
    | ⟨0, _⟩ => show win0_6.index ⟨24, h24⟩ (0 : Fin 2) * 1 = 0; rw [e60]
    | ⟨1, _⟩ => show win0_6.index ⟨24, h24⟩ (1 : Fin 2) * 512 = 0; rw [e61]
  exact (Memref.read_access_unit_zero (Elt Ideal) main_v20_2 hz' (fun a => by rw [congrFun hz' a]; simp) _).symm

/-- So after the run the sum-of-squares row holds what the last point left. -/
theorem arr6 (c : Dev nD) : (dat0 V c).arrAt 6 cfg0.N = (outsAt0 V c 24 h24).2.2 :=
  (dat0 V c).arrAt_eq_of_cover 6 _ (flushed6_eq V c) fun i =>
    ⟨⟨24, h24⟩, (flush0_6 ⟨24, h24⟩).mpr rfl, by
      show i ∈ ((View.whole main_v20_2).slice (win0_6.rect ⟨24, h24⟩)).set
      rw [View.set_slice_whole, Rect.mem_set_unit]
      obtain ⟨-, -, -, -, -, -, -, -, -, -, e50, e51, e60, e61⟩ := idx_facts ⟨24, h24⟩
      have hi0 : (i 0 : Nat) < 1 := (i 0).isLt
      have hi1 : (i 1 : Nat) < 512 := (i 1).isLt
      intro a
      match a with
      | ⟨0, _⟩ =>
        show win0_6.index ⟨24, h24⟩ (0 : Fin 2) * 1 ≤ (i 0 : Nat) ∧ (i 0 : Nat) < win0_6.index ⟨24, h24⟩ (0 : Fin 2) * 1 + 1
        rw [e60]; omega
      | ⟨1, _⟩ =>
        show win0_6.index ⟨24, h24⟩ (1 : Fin 2) * 512 ≤ (i 1 : Nat) ∧ (i 1 : Nat) < win0_6.index ⟨24, h24⟩ (1 : Fin 2) * 512 + 512
        rw [e61]; omega⟩

/-- The sum-of-squares row after the run, at k, is the hidden layer's column k squared and summed over all 50000 rows: 25 blocks of 2000. -/
theorem final6 (c : Dev nD) (k : Fin 512) :
    (dat0 V c).arrAt 6 cfg0.N (ix2 (0 : Fin 1) k) = Cert.Spec.csumsq (H V c) k := by
  refine (congrFun (arr6 V c) (ix2 (0 : Fin 1) k)).trans ?_
  refine (run6 V c 24 h24 k).trans ?_
  show (Cert.Spec.zero + ∑ s ∈ Finset.range (24 + 1), blkSumSq V c s k : EReal) = Cert.Spec.csumsq (H V c) k
  rw [Cert.Spec.ofBits_zero, zero_add, Finset.sum_range]
  unfold Cert.Spec.csumsq
  rw [← Cert.Spec.regroup]
  refine Finset.sum_congr rfl fun s _ => ?_
  unfold blkSumSq
  rw [dif_pos s.isLt]

end Cert.KernelIdeal.K0I

end
-- ==== Proof.KHost.lean ====
/-
  The host side of the two-region program, read as pure functions of whatever the buffers hold when a stretch of host
  operations starts.  Before the first region: the aggregated features (each edge's source row gathered, a negative
  source index wrapped by the number of nodes, and added into the edge's destination row of a zero array), the two
  weight matrices rounded to the narrow float format, and the four parameter rows re-laid as one-row matrices.
  Between the regions: the column mean (the column sum over 50000) and the column variance (the column sum of squares
  over 50000, minus the squared mean).  Every statement is over a variable valuation, so that each is a short
  computation over the list of operations and nothing of the surrounding run is unfolded.
-/
import proofs.«154781_j36120674959489_1_alg».proof.Proof.Gen.KernelIdeal.Frame
import Idealize.ShloMosaic.Lib.StableHlo.Run
import Idealize.ShloMosaic.Lib.ValueLayout
import proofs.«154781_j36120674959489_1_alg».proof.Proof.Spec

set_option maxRecDepth 16384

noncomputable section

namespace Cert.KernelIdeal.KHost

open Cert.KernelIdeal Cert.KernelIdeal.Gen
open Idealize.ShloMosaic Idealize.ShloMosaic.TcCoe Idealize.ShloMosaic.Tactic
open Idealize.ShloMosaic.StableHlo (after_cons after_nil)

variable {F : FTy → Type} [FloatOps F]

/-! ## Before the first region -/

/-- The edges' source indices: row 0 of the edge array, as a vector. -/
def srcRow (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- The edges' destination indices: row 1 of the edge array, as a vector. -/
def dstRow (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- The source indices with a negative one wrapped by the number of nodes. -/
def srcWrapped (e : (⟨S2x800000, .i32⟩ : BufTy).Contents (Elt F)) : (⟨S800000, .i32⟩ : BufTy).Contents (Elt F) :=
  select (cmpi .slt (srcRow (F := F) e) (broadcastInDim S800000 ![] bcast_S_S800000 (constantI S_ 32 0#32)))
    (addi (srcRow (F := F) e) (broadcastInDim S800000 ![] bcast_S_S800000 (constantI S_ 32 50000#32)))
    (srcRow (F := F) e)

/-- The aggregated features: each edge's source row of `x`, added into the edge's destination row of a zero array. -/
def agg (x : (⟨S50000x256, .f32⟩ : BufTy).Contents (Elt F)) (e : (⟨S2x800000, .i32⟩ : BufTy).Contents (Elt F)) :
    (⟨S50000x256, .f32⟩ : BufTy).Contents (Elt F) :=
  Host.scatterAdd scatter_S50000x256_S800000x1_S800000x256_1_0_0_1
    (broadcastInDim S50000x256 ![] bcast_S_S50000x256 (constant (F := F) S_ .f32 0x00000000#32))
    (broadcastInDim S800000x1 ![0] bcast_S800000_S800000x1_0 (dstRow (F := F) e))
    (Host.gather gather_S50000x256_S800000x1_S800000x256_1_0_n_n_0_1_1256 x
      (broadcastInDim S800000x1 ![0] bcast_S800000_S800000x1_0 (srcWrapped (F := F) e)))

variable (W : Valuation τ sig (Elt F))

/-- The scatter-add's result is the aggregated features of the first two arguments. -/
theorem pre_v13 : StableHlo.after hostOps0 W (Proc.devRef .tc main_v13)
    = agg (W (Proc.devRef .tc main_arg0)) (W (Proc.devRef .tc main_arg1)) := by
  after_results_simp <;> rfl

/-- The first weight matrix, rounded to the narrow format. -/
theorem pre_v14 : StableHlo.after hostOps0 W (Proc.devRef .tc main_v14)
    = truncf .bf16 (W (Proc.devRef .tc main_arg2)) bitsLt_bf16_f32 := by
  after_results_simp <;> rfl

/-- The second weight matrix, rounded to the narrow format. -/
theorem pre_v15 : StableHlo.after hostOps0 W (Proc.devRef .tc main_v15)
    = truncf .bf16 (W (Proc.devRef .tc main_arg6)) bitsLt_bf16_f32 := by
  after_results_simp <;> rfl

/-- The first bias as a one-row matrix. -/
theorem pre_v16 : StableHlo.after hostOps0 W (Proc.devRef .tc main_v16)
    = shapeCast S1x512 (W (Proc.devRef .tc main_arg3)) shapeCasts_S512_S1x512 := by
  after_results_simp <;> rfl

/-- The second bias as a one-row matrix. -/
theorem pre_v17 : StableHlo.after hostOps0 W (Proc.devRef .tc main_v17)
    = shapeCast S1x512 (W (Proc.devRef .tc main_arg7)) shapeCasts_S512_S1x512 := by
  after_results_simp <;> rfl

/-- The scale as a one-row matrix. -/
theorem pre_v18 : StableHlo.after hostOps0 W (Proc.devRef .tc main_v18)
    = shapeCast S1x512 (W (Proc.devRef .tc main_arg4)) shapeCasts_S512_S1x512 := by
  after_results_simp <;> rfl

/-- The shift as a one-row matrix. -/
theorem pre_v19 : StableHlo.after hostOps0 W (Proc.devRef .tc main_v19)
    = shapeCast S1x512 (W (Proc.devRef .tc main_arg5)) shapeCasts_S512_S1x512 := by
  after_results_simp <;> rfl

/-- No operation before the first region writes the first argument. -/
theorem pre_arg0 : StableHlo.after hostOps0 W (Proc.devRef .tc main_arg0) = W (Proc.devRef .tc main_arg0) := by
  after_results_simp <;> rfl

/-! ## Between the regions -/

/-- The column mean: the first region's column sum over the number of nodes. -/
theorem mid_v22 : StableHlo.after hostOps1 W (Proc.devRef .tc main_v22)
    = Host.divf (W (Proc.devRef .tc main_v20_1))
        (broadcastInDim S1x512 ![] bcast_S_S1x512 (constant (F := F) S_ .f32 0x47435000#32)) := by
  after_results_simp <;> rfl

/-- The column variance: the first region's column sum of squares over the number of nodes, minus the squared mean. -/
theorem mid_v26 : StableHlo.after hostOps1 W (Proc.devRef .tc main_v26)
    = subf (Host.divf (W (Proc.devRef .tc main_v20_2))
          (broadcastInDim S1x512 ![] bcast_S_S1x512 (constant (F := F) S_ .f32 0x47435000#32)))
        (mulf (Host.divf (W (Proc.devRef .tc main_v20_1))
            (broadcastInDim S1x512 ![] bcast_S_S1x512 (constant (F := F) S_ .f32 0x47435000#32)))
          (Host.divf (W (Proc.devRef .tc main_v20_1))
            (broadcastInDim S1x512 ![] bcast_S_S1x512 (constant (F := F) S_ .f32 0x47435000#32)))) := by
  after_results_simp <;> rfl

/-- No operation between the regions writes the hidden layer. -/
theorem mid_v20_0 : StableHlo.after hostOps1 W (Proc.devRef .tc main_v20_0) = W (Proc.devRef .tc main_v20_0) := by
  after_results_simp <;> rfl

/-- No operation between the regions writes the rounded second weight matrix. -/
theorem mid_v15 : StableHlo.after hostOps1 W (Proc.devRef .tc main_v15) = W (Proc.devRef .tc main_v15) := by
  after_results_simp <;> rfl

/-- No operation between the regions writes the second bias row. -/
theorem mid_v17 : StableHlo.after hostOps1 W (Proc.devRef .tc main_v17) = W (Proc.devRef .tc main_v17) := by
  after_results_simp <;> rfl

/-- No operation between the regions writes the scale row. -/
theorem mid_v18 : StableHlo.after hostOps1 W (Proc.devRef .tc main_v18) = W (Proc.devRef .tc main_v18) := by
  after_results_simp <;> rfl

/-- No operation between the regions writes the shift row. -/
theorem mid_v19 : StableHlo.after hostOps1 W (Proc.devRef .tc main_v19) = W (Proc.devRef .tc main_v19) := by
  after_results_simp <;> rfl

/-! ## The same terms read at an index, over the extended reals -/

section Reads

open Idealize.ShloMosaic.ValueIdx

/-- A parameter row re-laid as a one-row matrix reads, at column `k`, the row's entry `k`. -/
theorem row_apply (b : FVec Ideal S512 .f32) (k : Fin 512) :
    shapeCast S1x512 b shapeCasts_S512_S1x512 (ix2 (0 : Fin 1) k) = b (ix1 k) :=
  shapeCast_a_1a_apply b shapeCasts_S512_S1x512 0 k

/-- The quotient of a row by the number of nodes, at column `k`. -/
theorem divN_apply (s : FVec Ideal S1x512 .f32) (k : Fin 512) :
    Host.divf (F := Ideal) s (broadcastInDim S1x512 ![] bcast_S_S1x512 (constant (F := Ideal) S_ .f32 0x47435000#32))
        (ix2 (0 : Fin 1) k)
      = Ideal.div (s (ix2 0 k)) Cert.Spec.c50000 := rfl

/-- The variance row at column `k`: the mean of squares minus the squared mean. -/
theorem var_apply (s q : FVec Ideal S1x512 .f32) (k : Fin 512) :
    subf (Host.divf (F := Ideal) q (broadcastInDim S1x512 ![] bcast_S_S1x512 (constant (F := Ideal) S_ .f32 0x47435000#32)))
        (mulf (Host.divf (F := Ideal) s (broadcastInDim S1x512 ![] bcast_S_S1x512 (constant (F := Ideal) S_ .f32 0x47435000#32)))
          (Host.divf (F := Ideal) s (broadcastInDim S1x512 ![] bcast_S_S1x512 (constant (F := Ideal) S_ .f32 0x47435000#32))))
        (ix2 (0 : Fin 1) k)
      = Ideal.div (q (ix2 0 k)) Cert.Spec.c50000
          - Ideal.div (s (ix2 0 k)) Cert.Spec.c50000 * Ideal.div (s (ix2 0 k)) Cert.Spec.c50000 := rfl

end Reads

end Cert.KernelIdeal.KHost

end
-- ==== Proof.K1Value.lean ====
/-
  The second kernel's result array.  At every grid point the body normalises its block of hidden rows by the mean and
  variance rows, scales and shifts it, multiplies it into the second weight matrix and adds the second bias; the point
  writes that block back, and the 25 blocks of 2000 rows tile the 50000 rows.  So the array the region leaves is the
  specification's output, index by index, of the contents the region found in its seven input arrays.
-/
import proofs.«154781_j36120674959489_1_alg».proof.Proof.Gen.KernelIdeal.Frame
import proofs.«154781_j36120674959489_1_alg».proof.Proof.Spec
import proofs.«154781_j36120674959489_1_alg».proof.Proof.LibPlainDot
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx

namespace Cert.KernelIdeal.K1

open Cert.KernelIdeal Cert.KernelIdeal.Gen

/-- A whole block is read from offset zero on both axes. -/
theorem hz : (![0, 0] : Fin 2 → Nat) = fun _ => 0 := funext fun a => by fin_cases a <;> rfl

/-! ## The body's arithmetic at an index -/

/-- The block the body stores, at row `r` and column `k`: the normalised, scaled and shifted row `r` of the hidden
    block against column `k` of the second weight matrix, plus the second bias. -/
theorem pay_apply (x0 : FVec Ideal S2000x512 .f32) (v m g bt : FVec Ideal S1x512 .f32) (w2 : FVec Ideal S512x512 .bf16)
    (b2 : FVec Ideal S1x512 .f32) (r : Fin 2000) (k : Fin 512) :
    k1_pay1 (F := Ideal) x0 v m g bt w2 b2 (ix2 r k)
      = ∑ j : Fin 512, ((x0 (ix2 r j) - m (ix2 (0 : Fin 1) j)) * Ideal.rsqrt (v (ix2 (0 : Fin 1) j) + Cert.Spec.eps)
            * g (ix2 (0 : Fin 1) j) + bt (ix2 (0 : Fin 1) j)) * w2 (ix2 j k) + b2 (ix2 (0 : Fin 1) k) := by
  unfold k1_pay1
  simp only [shapeCast_self]
  unfold Idealize.ShloMosaic.matmul
  rw [addf_apply, broadcastTo_1b_ab_apply, Ideal.matmul_constant_zero_apply,
    Cert.LibPlainDot.plain_sum dot_S2000x512_S512x512_S2000x512_1_0_0_1_n_n rfl rfl rfl rfl rfl rfl
      (fun l rr => (truncf .bf16 (addf (mulf (mulf (subf x0 (broadcastTo S2000x512 m broadcasts_S1x512_S2000x512))
          (broadcastTo S2000x512 (rsqrt (addf v (broadcast S1x512 (Scalar.ofBits .f32 0x3727C5AC#32)))) broadcasts_S1x512_S2000x512))
          (broadcastTo S2000x512 g broadcasts_S1x512_S2000x512)) (broadcastTo S2000x512 bt broadcasts_S1x512_S2000x512)) bitsLt_bf16_f32 : FVec Ideal S2000x512 .bf16) l * w2 rr) r k]
  congr 1
  refine Finset.sum_congr rfl fun j _ => ?_
  rw [truncf_apply, addf_apply, mulf_apply, mulf_apply, subf_apply, broadcastTo_1b_ab_apply, broadcastTo_1b_ab_apply,
    broadcastTo_1b_ab_apply, broadcastTo_1b_ab_apply]
  rfl

/-- The same against the specification: when the hidden block's row `r` is row `R` of the hidden array and the six other
    blocks are the whole rows and the whole matrix, the body's value at `(r, k)` is the specification's output at `(R, k)`. -/
theorem pay_outv (x0 : FVec Ideal S2000x512 .f32) (x1 x2 x3 x4 : FVec Ideal S1x512 .f32) (x5 : FVec Ideal S512x512 .bf16)
    (x6 : FVec Ideal S1x512 .f32) (H : (⟨2, ![50000, 512]⟩ : Shape).Idx → EReal) (mu va g bt : Fin 512 → EReal)
    (W : (⟨2, ![512, 512]⟩ : Shape).Idx → EReal) (b2 : Fin 512 → EReal) (R : Fin 50000) (r : Fin 2000) (k : Fin 512)
    (h0 : ∀ j : Fin 512, x0 (ix2 r j) = H (ix2 R j)) (h1 : ∀ j : Fin 512, x1 (ix2 (0 : Fin 1) j) = mu j)
    (h2 : ∀ j : Fin 512, x2 (ix2 (0 : Fin 1) j) = va j) (h3 : ∀ j : Fin 512, x3 (ix2 (0 : Fin 1) j) = g j)
    (h4 : ∀ j : Fin 512, x4 (ix2 (0 : Fin 1) j) = bt j) (h5 : ∀ j q : Fin 512, x5 (ix2 j q) = W (ix2 j q))
    (h6 : ∀ j : Fin 512, x6 (ix2 (0 : Fin 1) j) = b2 j) :
    k1_pay1 (F := Ideal) x0 x2 x1 x3 x4 x5 x6 (ix2 r k)
      = Cert.Spec.outv (fun a b => H (ix2 a b)) mu va g bt W b2 R k := by
  rw [pay_apply]
  unfold Cert.Spec.outv
  simp only [h0, h1, h2, h3, h4, h5, h6]

/-! ## From the blocks to the array -/

variable (V : (c : Dev nD) → (b : Ref sig .tc) → Buf (Elt Ideal) ((c : Thread nD τ).loc b))

/-- What the result array ends holding: the specification's output of the contents the region found. -/
def G (c : Dev nD) : S50000x512.Idx → EReal := fun i =>
  Cert.Spec.outv (fun a b => V c main_v20_0 (ix2 a b)) (fun k => V c main_v22 (ix2 (0 : Fin 1) k))
    (fun k => V c main_v26 (ix2 (0 : Fin 1) k)) (fun k => V c main_v18 (ix2 (0 : Fin 1) k))
    (fun k => V c main_v19 (ix2 (0 : Fin 1) k)) (V c main_v15) (fun k => V c main_v17 (ix2 (0 : Fin 1) k)) (i 0) (i 1)

/-- The index maps, decided over the grid: the hidden block and the result block move down one block of rows per
    point; the rows and the weight matrix stay. -/
theorem idx_facts : ∀ t : Fin cfg1.N, win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- There are 25 points. -/
theorem t_lt (t : Fin cfg1.N) : t.val < 25 := lt_of_lt_of_eq t.isLt N_1

/-- What point `t` writes back is block `t` of the specification's output. -/
theorem flushed7_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S2000x512) hz, View.ld_unit_zero (S := S1x512) hz, View.ld_unit_zero (S := S512x512) hz]
  obtain ⟨e00, e01, e70, e71, e10, e11, e20, e21, e30, e31, e40, e41, e50, e51, e60, e61⟩ := idx_facts t
  have ht := t_lt t
  funext y
  obtain ⟨r, k, rfl⟩ : ∃ (r : Fin 2000) (k : Fin 512), y = ix2 r k := ⟨y 0, y 1, eq_ix2 y⟩
  have hr := r.isLt
  have hk := k.isLt
  have h0 : ∀ j : Fin 512, iblk1 V c 0 t (ix2 r j) = V c main_v20_0 (ix2 (⟨t.val * 2000 + r.val, by omega⟩ : Fin 50000) j) := fun j => by
    show V c main_v20_0 (((cfg1.win 0).blk t).view.emb (ix2 r j)) = _
    refine congrArg (V c main_v20_0) (funext fun a => Fin.ext ?_)
    match a with
    | ⟨0, _⟩ => show win1_0.index t (0 : Fin 2) * 2000 + 1 * r.val = t.val * 2000 + r.val; omega
    | ⟨1, _⟩ => show win1_0.index t (1 : Fin 2) * 512 + 1 * j.val = j.val; omega
  have h1 : ∀ j : Fin 512, iblk1 V c 1 t (ix2 (0 : Fin 1) j) = V c main_v22 (ix2 (0 : Fin 1) j) := fun j => by
    show V c main_v22 (((cfg1.win 1).blk t).view.emb (ix2 (0 : Fin 1) j)) = _
    refine congrArg (V c main_v22) (funext fun a => Fin.ext ?_)
    match a with
    | ⟨0, _⟩ => show win1_1.index t (0 : Fin 2) * 1 + 1 * 0 = 0; omega
    | ⟨1, _⟩ => show win1_1.index t (1 : Fin 2) * 512 + 1 * j.val = j.val; omega
  have h2 : ∀ j : Fin 512, iblk1 V c 2 t (ix2 (0 : Fin 1) j) = V c main_v26 (ix2 (0 : Fin 1) j) := fun j => by
    show V c main_v26 (((cfg1.win 2).blk t).view.emb (ix2 (0 : Fin 1) j)) = _
    refine congrArg (V c main_v26) (funext fun a => Fin.ext ?_)
    match a with
    | ⟨0, _⟩ => show win1_2.index t (0 : Fin 2) * 1 + 1 * 0 = 0; omega
    | ⟨1, _⟩ => show win1_2.index t (1 : Fin 2) * 512 + 1 * j.val = j.val; omega
  have h3 : ∀ j : Fin 512, iblk1 V c 3 t (ix2 (0 : Fin 1) j) = V c main_v18 (ix2 (0 : Fin 1) j) := fun j => by
    show V c main_v18 (((cfg1.win 3).blk t).view.emb (ix2 (0 : Fin 1) j)) = _
    refine congrArg (V c main_v18) (funext fun a => Fin.ext ?_)
    match a with
    | ⟨0, _⟩ => show win1_3.index t (0 : Fin 2) * 1 + 1 * 0 = 0; omega
    | ⟨1, _⟩ => show win1_3.index t (1 : Fin 2) * 512 + 1 * j.val = j.val; omega
  have h4 : ∀ j : Fin 512, iblk1 V c 4 t (ix2 (0 : Fin 1) j) = V c main_v19 (ix2 (0 : Fin 1) j) := fun j => by
    show V c main_v19 (((cfg1.win 4).blk t).view.emb (ix2 (0 : Fin 1) j)) = _
    refine congrArg (V c main_v19) (funext fun a => Fin.ext ?_)
    match a with
    | ⟨0, _⟩ => show win1_4.index t (0 : Fin 2) * 1 + 1 * 0 = 0; omega
    | ⟨1, _⟩ => show win1_4.index t (1 : Fin 2) * 512 + 1 * j.val = j.val; omega
  have h5 : ∀ j q : Fin 512, iblk1 V c 5 t (ix2 j q) = V c main_v15 (ix2 j q) := fun j q => by
    show V c main_v15 (((cfg1.win 5).blk t).view.emb (ix2 j q)) = _
    refine congrArg (V c main_v15) (funext fun a => Fin.ext ?_)
    match a with
    | ⟨0, _⟩ => show win1_5.index t (0 : Fin 2) * 512 + 1 * j.val = j.val; omega
    | ⟨1, _⟩ => show win1_5.index t (1 : Fin 2) * 512 + 1 * q.val = q.val; omega
  have h6 : ∀ j : Fin 512, iblk1 V c 6 t (ix2 (0 : Fin 1) j) = V c main_v17 (ix2 (0 : Fin 1) j) := fun j => by
    show V c main_v17 (((cfg1.win 6).blk t).view.emb (ix2 (0 : Fin 1) j)) = _
    refine congrArg (V c main_v17) (funext fun a => Fin.ext ?_)
    match a with
    | ⟨0, _⟩ => show win1_6.index t (0 : Fin 2) * 1 + 1 * 0 = 0; omega
    | ⟨1, _⟩ => show win1_6.index t (1 : Fin 2) * 512 + 1 * j.val = j.val; omega
  have e7 : ((cfg1.win 7).blk t).view.emb (ix2 r k) = ix2 (⟨t.val * 2000 + r.val, by omega⟩ : Fin 50000) k := by
    funext a; apply Fin.ext
    match a with
    | ⟨0, _⟩ => show win1_7.index t (0 : Fin 2) * 2000 + 1 * r.val = t.val * 2000 + r.val; omega
    | ⟨1, _⟩ => show win1_7.index t (1 : Fin 2) * 512 + 1 * k.val = k.val; omega
  refine (pay_outv (iblk1 V c 0 t) (iblk1 V c 1 t) (iblk1 V c 2 t) (iblk1 V c 3 t) (iblk1 V c 4 t) (iblk1 V c 5 t) (iblk1 V c 6 t)
    (V c main_v20_0) (fun k => V c main_v22 (ix2 (0 : Fin 1) k)) (fun k => V c main_v26 (ix2 (0 : Fin 1) k))
    (fun k => V c main_v18 (ix2 (0 : Fin 1) k)) (fun k => V c main_v19 (ix2 (0 : Fin 1) k)) (V c main_v15)
    (fun k => V c main_v17 (ix2 (0 : Fin 1) k)) ⟨t.val * 2000 + r.val, by omega⟩ r k h0 h1 h2 h3 h4 h5 h6).trans ?_
  show _ = G V c (((cfg1.win 7).blk t).view.emb (ix2 r k))
  rw [e7]
  rfl

/-- An index of the result array is in point `t`'s block iff each coordinate is in the block's range on its axis. -/
theorem mem_blk7 (t : Fin cfg1.N) (i : S50000x512.Idx) :
    i ∈ ((cfg1.win 7).blk t).view.set ↔ ∀ a : Fin 2, win1_7.index t a * S2000x512.size a ≤ (i a).val ∧ (i a).val < win1_7.index t a * S2000x512.size a + S2000x512.size a := by
  show i ∈ ((View.whole main_v27).slice (win1_7.rect t)).set ↔ _
  rw [View.set_slice_whole, Rect.mem_set_unit]
  exact Iff.rfl

/-- Every row lies in the block of the point its number divided by 2000 names. -/
theorem cover7 (i : S50000x512.Idx) : ∃ t : Fin cfg1.N, (cfg1.win 7).flush t = true ∧ i ∈ ((cfg1.win 7).blk t).view.set := by
  have hi0 : (i 0).val < 50000 := (i 0).isLt
  have hi1 : (i 1).val < 512 := (i 1).isLt
  have hN : (i 0).val / 2000 < cfg1.N := by rw [show cfg1.N = 25 from N_1]; omega
  obtain ⟨e00, e01, e70, e71, -⟩ := idx_facts ⟨(i 0).val / 2000, hN⟩
  refine ⟨⟨(i 0).val / 2000, hN⟩, flush1_7 _, ?_⟩
  rw [mem_blk7]
  intro a
  match a with
  | ⟨0, _⟩ => show win1_7.index ⟨(i 0).val / 2000, hN⟩ (0 : Fin 2) * 2000 ≤ (i 0).val ∧ (i 0).val < win1_7.index ⟨(i 0).val / 2000, hN⟩ (0 : Fin 2) * 2000 + 2000; rw [e70]; show (i 0).val / 2000 * 2000 ≤ (i 0).val ∧ (i 0).val < (i 0).val / 2000 * 2000 + 2000; omega
  | ⟨1, _⟩ => show win1_7.index ⟨(i 0).val / 2000, hN⟩ (1 : Fin 2) * 512 ≤ (i 1).val ∧ (i 1).val < win1_7.index ⟨(i 0).val / 2000, hN⟩ (1 : Fin 2) * 512 + 512; rw [e71]; omega

/-- The result array after the region: the specification's output, index by index. -/
theorem final7 (c : Dev nD) : (dat1 V c).arrAt 7 cfg1.N = G V c :=
  (dat1 V c).arrAt_eq_of_cover 7 (G V c) (fun t _ => flushed7_eq V c t) (cover7)

/-- The same with the output written out. -/
theorem final7_spec (c : Dev nD) : (dat1 V c).arrAt 7 cfg1.N = fun i =>
    Cert.Spec.outv (fun a b => V c main_v20_0 (ix2 a b)) (fun k => V c main_v22 (ix2 (0 : Fin 1) k))
      (fun k => V c main_v26 (ix2 (0 : Fin 1) k)) (fun k => V c main_v18 (ix2 (0 : Fin 1) k))
      (fun k => V c main_v19 (ix2 (0 : Fin 1) k)) (V c main_v15) (fun k => V c main_v17 (ix2 (0 : Fin 1) k)) (i 0) (i 1) :=
  final7 V c

end Cert.KernelIdeal.K1

end
-- ==== Proof.KRun.lean ====
/-
  The accumulating program's run, read: the result buffer it leaves is the specification's output of the hidden layer
  it computed, normalised by the column mean and variance it formed from the accumulated column sum and sum of squares,
  all as functions of the eight argument arrays.  The run's last boundary valuation is walked back stretch by stretch:
  the second region's array is the output of what that region found; what it found is what the host operations
  between the regions made of the first region's three arrays, and the parameter rows and matrices the host
  operations before the first region made of the arguments.
-/
import proofs.«154781_j36120674959489_1_alg».proof.Proof.KFrame
import proofs.«154781_j36120674959489_1_alg».proof.Proof.KHost
import proofs.«154781_j36120674959489_1_alg».proof.Proof.K1Value
import proofs.«154781_j36120674959489_1_alg».proof.Proof.Spec

noncomputable section

open scoped BigOperators
open Idealize.ShloMosaic Idealize.ShloMosaic.TcCoe Idealize.SL.Sem
open Idealize.ShloMosaic.Pipeline (Dat)
open Idealize.ShloMosaic.ValueIdx

namespace Cert.KernelIdeal.KRun

open Cert.KernelIdeal Cert.KernelIdeal.Gen

/-! ## The specification's functions respect equality of their arguments, a row given entry by entry -/

theorem hid_congr {x x' a a' : (⟨2, ![50000, 256]⟩ : Shape).Idx → EReal} {w w' : (⟨2, ![256, 512]⟩ : Shape).Idx → EReal}
    {b b' : Fin 512 → EReal} (hx : x = x') (ha : a = a') (hw : w = w') (hb : ∀ k, b k = b' k) :
    Cert.Spec.hid x a w b = Cert.Spec.hid x' a' w' b' := by
  obtain rfl := hx; obtain rfl := ha; obtain rfl := hw; obtain rfl := funext hb; rfl

theorem outv_congr {h h' : Fin 50000 → Fin 512 → EReal} {mu mu' va va' g g' bt bt' : Fin 512 → EReal}
    {w w' : (⟨2, ![512, 512]⟩ : Shape).Idx → EReal} {b b' : Fin 512 → EReal} (hh : h = h') (hmu : ∀ k, mu k = mu' k)
    (hva : ∀ k, va k = va' k) (hg : ∀ k, g k = g' k) (hbt : ∀ k, bt k = bt' k) (hw : w = w') (hb : ∀ k, b k = b' k) :
    Cert.Spec.outv h mu va g bt w b = Cert.Spec.outv h' mu' va' g' bt' w' b' := by
  obtain rfl := hh; obtain rfl := funext hmu; obtain rfl := funext hva; obtain rfl := funext hg
  obtain rfl := funext hbt; obtain rfl := hw; obtain rfl := funext hb; rfl

/-! ## The hidden layer, of a region's entry contents and of the arguments -/

/-- The hidden layer of the contents the first region finds. -/
def HV (V : (c : Dev nD) → (b : Ref sig .tc) → Buf (Elt Ideal) ((c : Thread nD τ).loc b)) (c : Dev nD) :
    Fin 50000 → Fin 512 → EReal :=
  Cert.Spec.hid (V c main_arg0) (V c main_v13) (V c main_v14) (fun k => V c main_v16 (ix2 (0 : Fin 1) k))

variable (m : (ℓ : Loc nD τ sig) → Buf (Elt Ideal) ℓ) (ρ : Dev nD → PrngReg) (c : Dev nD)

/-- The hidden layer of the arguments: the features plus their aggregate, against the first weight matrix and bias. -/
def Hk : Fin 50000 → Fin 512 → EReal :=
  Cert.Spec.hid (m ((c.tc : Thread nD τ).loc main_arg0))
    (KHost.agg (m ((c.tc : Thread nD τ).loc main_arg0)) (m ((c.tc : Thread nD τ).loc main_arg1)))
    (m ((c.tc : Thread nD τ).loc main_arg2)) (fun k => m ((c.tc : Thread nD τ).loc main_arg3) (ix1 k))

/-! ## What the first region finds -/

theorem e_arg0 : V1 m ρ c main_arg0 = m ((c.tc : Thread nD τ).loc main_arg0) :=
  KHost.pre_arg0 (W0 m ρ c)

theorem e_v13 : V1 m ρ c main_v13
    = KHost.agg (m ((c.tc : Thread nD τ).loc main_arg0)) (m ((c.tc : Thread nD τ).loc main_arg1)) :=
  KHost.pre_v13 (W0 m ρ c)

theorem e_v14 : V1 m ρ c main_v14 = m ((c.tc : Thread nD τ).loc main_arg2) :=
  KHost.pre_v14 (W0 m ρ c)

theorem e_v16 (k : Fin 512) : V1 m ρ c main_v16 (ix2 (0 : Fin 1) k) = m ((c.tc : Thread nD τ).loc main_arg3) (ix1 k) :=
  (congrFun (KHost.pre_v16 (W0 m ρ c)) (ix2 (0 : Fin 1) k)).trans
    (KHost.row_apply (W0 m ρ c (Proc.devRef .tc main_arg3)) k)

/-- The hidden layer the first region computes is the hidden layer of the arguments. -/
theorem H_eq : HV (V1 m ρ) c = Hk m c :=
  hid_congr (e_arg0 m ρ c) (e_v13 m ρ c) (e_v14 m ρ c) (e_v16 m ρ c)

/-! ## What the second region finds -/

section Second

/- The first region's three arrays, as that region's proof states them: the hidden layer, its column sums and its
   column sums of squares, for whatever contents the region is entered with. -/
variable (h4 : ∀ (V : (c : Dev nD) → (b : Ref sig .tc) → Buf (Elt Ideal) ((c : Thread nD τ).loc b)) (c : Dev nD),
    (dat0 V c).arrAt 4 cfg0.N = fun i => HV V c (i 0) (i 1))
variable (h5 : ∀ (V : (c : Dev nD) → (b : Ref sig .tc) → Buf (Elt Ideal) ((c : Thread nD τ).loc b)) (c : Dev nD) (k : Fin 512),
    (dat0 V c).arrAt 5 cfg0.N (ix2 (0 : Fin 1) k) = Cert.Spec.csum (HV V c) k)
variable (h6 : ∀ (V : (c : Dev nD) → (b : Ref sig .tc) → Buf (Elt Ideal) ((c : Thread nD τ).loc b)) (c : Dev nD) (k : Fin 512),
    (dat0 V c).arrAt 6 cfg0.N (ix2 (0 : Fin 1) k) = Cert.Spec.csumsq (HV V c) k)

include h4 in
/-- The hidden array the second region reads is the hidden layer of the arguments. -/
theorem v20_0_eq (a : Fin 50000) (b : Fin 512) : V3 m ρ c main_v20_0 (ix2 a b) = Hk m c a b :=
  calc V3 m ρ c main_v20_0 (ix2 a b)
    _ = W2 m ρ c (Proc.devRef .tc main_v20_0) (ix2 a b) := congrFun (KHost.mid_v20_0 (W2 m ρ c)) (ix2 a b)
    _ = (dat0 (V1 m ρ) c).arrAt 4 cfg0.N (ix2 a b) := congrFun (W2_arr m ρ c 4) (ix2 a b)
    _ = HV (V1 m ρ) c a b := congrFun (h4 (V1 m ρ) c) (ix2 a b)
    _ = Hk m c a b := congrFun (congrFun (H_eq m ρ c) a) b

/-- The column-sum row the first region leaves, where the host operations between the regions read it. -/
theorem s_eq (k : Fin 512) : W2 m ρ c (Proc.devRef .tc main_v20_1) (ix2 (0 : Fin 1) k)
    = (dat0 (V1 m ρ) c).arrAt 5 cfg0.N (ix2 (0 : Fin 1) k) := congrFun (W2_arr m ρ c 5) (ix2 (0 : Fin 1) k)

/-- The sum-of-squares row likewise. -/
theorem q_eq (k : Fin 512) : W2 m ρ c (Proc.devRef .tc main_v20_2) (ix2 (0 : Fin 1) k)
    = (dat0 (V1 m ρ) c).arrAt 6 cfg0.N (ix2 (0 : Fin 1) k) := congrFun (W2_arr m ρ c 6) (ix2 (0 : Fin 1) k)

include h5 in
/-- The mean row the second region reads is the column mean of the arguments' hidden layer. -/
theorem v22_eq (k : Fin 512) : V3 m ρ c main_v22 (ix2 (0 : Fin 1) k) = Cert.Spec.meanK (Hk m c) k :=
  calc V3 m ρ c main_v22 (ix2 (0 : Fin 1) k)
    _ = Ideal.div (W2 m ρ c (Proc.devRef .tc main_v20_1) (ix2 (0 : Fin 1) k)) Cert.Spec.c50000 :=
        (congrFun (KHost.mid_v22 (W2 m ρ c)) (ix2 (0 : Fin 1) k)).trans (KHost.divN_apply _ k)
    _ = Ideal.div (Cert.Spec.csum (HV (V1 m ρ) c) k) Cert.Spec.c50000 :=
        congrArg (fun s => Ideal.div s Cert.Spec.c50000) ((s_eq m ρ c k).trans (h5 (V1 m ρ) c k))
    _ = Cert.Spec.meanK (Hk m c) k := congrArg (fun h => Cert.Spec.meanK h k) (H_eq m ρ c)

include h5 h6 in
/-- The variance row the second region reads is the column variance of the arguments' hidden layer. -/
theorem v26_eq (k : Fin 512) : V3 m ρ c main_v26 (ix2 (0 : Fin 1) k) = Cert.Spec.varK (Hk m c) k :=
  calc V3 m ρ c main_v26 (ix2 (0 : Fin 1) k)
    _ = Ideal.div (W2 m ρ c (Proc.devRef .tc main_v20_2) (ix2 (0 : Fin 1) k)) Cert.Spec.c50000
          - Ideal.div (W2 m ρ c (Proc.devRef .tc main_v20_1) (ix2 (0 : Fin 1) k)) Cert.Spec.c50000
            * Ideal.div (W2 m ρ c (Proc.devRef .tc main_v20_1) (ix2 (0 : Fin 1) k)) Cert.Spec.c50000 :=
        (congrFun (KHost.mid_v26 (W2 m ρ c)) (ix2 (0 : Fin 1) k)).trans (KHost.var_apply _ _ k)
    _ = Cert.Spec.varK (HV (V1 m ρ) c) k := by
        rw [(s_eq m ρ c k).trans (h5 (V1 m ρ) c k), (q_eq m ρ c k).trans (h6 (V1 m ρ) c k)]
        rfl
    _ = Cert.Spec.varK (Hk m c) k := congrArg (fun h => Cert.Spec.varK h k) (H_eq m ρ c)

/-- The scale row the second region reads is the scale argument. -/
theorem v18_eq (k : Fin 512) : V3 m ρ c main_v18 (ix2 (0 : Fin 1) k) = m ((c.tc : Thread nD τ).loc main_arg4) (ix1 k) :=
  calc V3 m ρ c main_v18 (ix2 (0 : Fin 1) k)
    _ = W2 m ρ c (Proc.devRef .tc main_v18) (ix2 (0 : Fin 1) k) := congrFun (KHost.mid_v18 (W2 m ρ c)) _
    _ = W1 m ρ c (Proc.devRef .tc main_v18) (ix2 (0 : Fin 1) k) := congrFun (W2_of_ne m ρ c main_v18 (by decide)) _
    _ = m ((c.tc : Thread nD τ).loc main_arg4) (ix1 k) :=
        (congrFun (KHost.pre_v18 (W0 m ρ c)) _).trans (KHost.row_apply (W0 m ρ c (Proc.devRef .tc main_arg4)) k)

/-- The shift row the second region reads is the shift argument. -/
theorem v19_eq (k : Fin 512) : V3 m ρ c main_v19 (ix2 (0 : Fin 1) k) = m ((c.tc : Thread nD τ).loc main_arg5) (ix1 k) :=
  calc V3 m ρ c main_v19 (ix2 (0 : Fin 1) k)
    _ = W2 m ρ c (Proc.devRef .tc main_v19) (ix2 (0 : Fin 1) k) := congrFun (KHost.mid_v19 (W2 m ρ c)) _
    _ = W1 m ρ c (Proc.devRef .tc main_v19) (ix2 (0 : Fin 1) k) := congrFun (W2_of_ne m ρ c main_v19 (by decide)) _
    _ = m ((c.tc : Thread nD τ).loc main_arg5) (ix1 k) :=
        (congrFun (KHost.pre_v19 (W0 m ρ c)) _).trans (KHost.row_apply (W0 m ρ c (Proc.devRef .tc main_arg5)) k)

/-- The second bias row the second region reads is the second bias argument. -/
theorem v17_eq (k : Fin 512) : V3 m ρ c main_v17 (ix2 (0 : Fin 1) k) = m ((c.tc : Thread nD τ).loc main_arg7) (ix1 k) :=
  calc V3 m ρ c main_v17 (ix2 (0 : Fin 1) k)
    _ = W2 m ρ c (Proc.devRef .tc main_v17) (ix2 (0 : Fin 1) k) := congrFun (KHost.mid_v17 (W2 m ρ c)) _
    _ = W1 m ρ c (Proc.devRef .tc main_v17) (ix2 (0 : Fin 1) k) := congrFun (W2_of_ne m ρ c main_v17 (by decide)) _
    _ = m ((c.tc : Thread nD τ).loc main_arg7) (ix1 k) :=
        (congrFun (KHost.pre_v17 (W0 m ρ c)) _).trans (KHost.row_apply (W0 m ρ c (Proc.devRef .tc main_arg7)) k)

/-- The second weight matrix the second region reads is the argument (its rounding is the identity on extended reals). -/
theorem v15_eq : V3 m ρ c main_v15 = m ((c.tc : Thread nD τ).loc main_arg6) :=
  calc V3 m ρ c main_v15
    _ = W2 m ρ c (Proc.devRef .tc main_v15) := KHost.mid_v15 (W2 m ρ c)
    _ = W1 m ρ c (Proc.devRef .tc main_v15) := W2_of_ne m ρ c main_v15 (by decide)
    _ = m ((c.tc : Thread nD τ).loc main_arg6) := KHost.pre_v15 (W0 m ρ c)

/-! ## The result buffer, and the run -/

include h4 h5 h6 in
/-- The result buffer at the last boundary is the specification's output of the arguments. -/
theorem value : W4 m ρ c (Proc.devRef .tc main_v27) = fun i =>
    Cert.Spec.outv (Hk m c) (Cert.Spec.meanK (Hk m c)) (Cert.Spec.varK (Hk m c))
      (fun k => m ((c.tc : Thread nD τ).loc main_arg4) (ix1 k)) (fun k => m ((c.tc : Thread nD τ).loc main_arg5) (ix1 k))
      (m ((c.tc : Thread nD τ).loc main_arg6)) (fun k => m ((c.tc : Thread nD τ).loc main_arg7) (ix1 k)) (i 0) (i 1) :=
  (W4_arr m ρ c 7).trans ((K1.final7_spec (V3 m ρ) c).trans (funext fun i => congrFun (congrFun
    (outv_congr (funext fun a => funext fun b => v20_0_eq m ρ c h4 a b) (v22_eq m ρ c h5) (v26_eq m ρ c h5 h6)
      (v18_eq m ρ c) (v19_eq m ρ c) (v15_eq m ρ c) (v17_eq m ρ c)) (i 0)) (i 1)))

include h4 h5 h6 in
/-- The run of the accumulating program: every weakly fair execution terminates, the result buffer holds the
    specification's output of the arguments, and the arguments are as launched. -/
theorem run : θ_run defs (onTc (τ := τ) (main (F := Ideal))) ⟨m, fun _ => 0, ρ⟩ (fun r => ∀ c : Dev nD,
      r.2.mem ((c.tc : Thread nD τ).loc main_v27) = (fun i =>
        Cert.Spec.outv (Hk m c) (Cert.Spec.meanK (Hk m c)) (Cert.Spec.varK (Hk m c))
          (fun k => m ((c.tc : Thread nD τ).loc main_arg4) (ix1 k)) (fun k => m ((c.tc : Thread nD τ).loc main_arg5) (ix1 k))
          (m ((c.tc : Thread nD τ).loc main_arg6)) (fun k => m ((c.tc : Thread nD τ).loc main_arg7) (ix1 k)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (value m ρ c h4 h5 h6), (h c).2⟩) (GenP.frame_res m ρ)

end Second

end Cert.KernelIdeal.KRun

end
-- ==== Proof.RefTerms.lean ====
/-
  The reference program's stages as pure functions: each is the composition of the program's printed
  operations over one stretch of its straight line, so that the contents of a result buffer after the run
  is one of these applied to the contents of the argument buffers.
-/
import proofs.«154781_j36120674959489_1_alg».proof.Proof.Gen.ReferenceIdeal

noncomputable section

namespace Cert.ReferenceIdeal.RefT

open Cert.ReferenceIdeal Idealize.ShloMosaic Idealize.SL.Sem
open Cert.ReferenceIdeal.Facts₀

variable {F : FTy → Type} [FloatOps F]

/-- The aggregated features. The source row of every edge is row 0 of the edge table, flattened, a negative
    index wrapped by the number of nodes; the destination row is row 1, flattened. The source rows of `x` are
    gathered, then added into a zero table at the destination rows. -/
def agg (x : (⟨S50000x256, .f32⟩ : BufTy).Contents (Elt F)) (e : (⟨S2x800000, .i32⟩ : BufTy).Contents (Elt F)) :
    (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0
      (shapeCast S800000 (extractStridedSlice S1x800000 ![1, 0] e slices_S2x800000_S1x800000_1_0) shapeCasts_S1x800000_S800000))
    (Host.gather gather_S50000x256_S800000x1_S800000x256_1_0_n_n_0_1_1256 x
      (broadcastInDim S800000x1 ![0] bcast_S800000_S800000x1_0
        (select
          (cmpi .slt (shapeCast S800000 (extractStridedSlice S1x800000 ![0, 0] e slices_S2x800000_S1x800000_0_0) shapeCasts_S1x800000_S800000) (broadcastInDim S800000 ![] bcast_S_S800000 (constantI S_ 32 0#32)))
          (addi (shapeCast S800000 (extractStridedSlice S1x800000 ![0, 0] e slices_S2x800000_S1x800000_0_0) shapeCasts_S1x800000_S800000) (broadcastInDim S800000 ![] bcast_S_S800000 (constantI S_ 32 50000#32)))
          (shapeCast S800000 (extractStridedSlice S1x800000 ![0, 0] e slices_S2x800000_S1x800000_0_0) shapeCasts_S1x800000_S800000))))

/-- The hidden layer of the summed features `xa`: against the first weight matrix, plus the bias row, floored at zero. -/
def hid (xa : (⟨S50000x256, .f32⟩ : BufTy).Contents (Elt F)) (w1 : (⟨S256x512, .f32⟩ : BufTy).Contents (Elt F))
    (b1 : (⟨S512, .f32⟩ : BufTy).Contents (Elt F)) : (⟨S50000x512, .f32⟩ : BufTy).Contents (Elt F) :=
  maximumf
    (addf (Host.dotGeneral dot_S50000x256_S256x512_S50000x512_1_0_0_1_n_n none xa w1)
      (broadcastInDim S50000x512 ![0, 1] bcast_S1x512_S50000x512_0_1 (broadcastInDim S1x512 ![1] bcast_S512_S1x512_1 b1)))
    (broadcastInDim S50000x512 ![] bcast_S_S50000x512 (constant S_ .f32 0x00000000#32))

/-- The column mean: the column sums started from zero, over the number of nodes. -/
def mean (h : (⟨S50000x512, .f32⟩ : BufTy).Contents (Elt F)) : (⟨S512, .f32⟩ : BufTy).Contents (Elt F) :=
  Host.divf (Host.reduceAdd h (constant S_ .f32 0x00000000#32) reducesTo_S50000x512_S512_d0 h_S_)
    (broadcastInDim S512 ![] bcast_S_S512 (constant S_ .f32 0x47435000#32))

/-- The column variance. The divisor is the number of nodes minus zero degrees of freedom, a scalar; the column
    mean is formed a second time, as a row; the column sums of the squared deviations from it, started from zero,
    over the divisor, are kept where the divisor is positive, the quiet-NaN pattern taking their place elsewhere. -/
def var (h : (⟨S50000x512, .f32⟩ : BufTy).Contents (Elt F)) : (⟨S512, .f32⟩ : BufTy).Contents (Elt F) :=
  select (broadcastInDim S512 ![] bcast_S_S512 (cmpf .ogt (subf (constant (F := F) S_ .f32 0x47435000#32) (sitofp .f32 (constantI S_ 32 0#32))) (constant S_ .f32 0x00000000#32)))
    (Host.divf
      (Host.reduceAdd
        (mulf
          (subf h (broadcastInDim S50000x512 ![0, 1] bcast_S1x512_S50000x512_0_1
          (Host.divf
            (broadcastInDim S1x512 ![1] bcast_S512_S1x512_1 (Host.reduceAdd h (constant S_ .f32 0x00000000#32) reducesTo_S50000x512_S512_d0 h_S_))
            (broadcastInDim S1x512 ![] bcast_S_S1x512 (constant S_ .f32 0x47435000#32)))))
          (subf h (broadcastInDim S50000x512 ![0, 1] bcast_S1x512_S50000x512_0_1
          (Host.divf
            (broadcastInDim S1x512 ![1] bcast_S512_S1x512_1 (Host.reduceAdd h (constant S_ .f32 0x00000000#32) reducesTo_S50000x512_S512_d0 h_S_))
            (broadcastInDim S1x512 ![] bcast_S_S1x512 (constant S_ .f32 0x47435000#32))))))
        (constant S_ .f32 0x00000000#32) reducesTo_S50000x512_S512_d0 h_S_)
      (broadcastInDim S512 ![] bcast_S_S512 (subf (constant (F := F) S_ .f32 0x47435000#32) (sitofp .f32 (constantI S_ 32 0#32)))))
    (broadcastInDim S512 ![] bcast_S_S512 (id (constant S_ .f32 0x7FC00000#32)))

/-- The output: the hidden values normalised by the column statistics, scaled and shifted, against the second
    weight matrix, plus the second bias row. -/
def out (h : (⟨S50000x512, .f32⟩ : BufTy).Contents (Elt F)) (mu va g bt : (⟨S512, .f32⟩ : BufTy).Contents (Elt F))
    (w2 : (⟨S512x512, .f32⟩ : BufTy).Contents (Elt F)) (b2 : (⟨S512, .f32⟩ : BufTy).Contents (Elt F)) :
    (⟨S50000x512, .f32⟩ : BufTy).Contents (Elt F) :=
  addf
    (Host.dotGeneral dot_S50000x512_S512x512_S50000x512_1_0_0_1_n_n none
      (addf
        (mulf
          (mulf
            (subf h (broadcastInDim S50000x512 ![0, 1] bcast_S1x512_S50000x512_0_1 (broadcastInDim S1x512 ![1] bcast_S512_S1x512_1 mu)))
            (broadcastInDim S50000x512 ![0, 1] bcast_S1x512_S50000x512_0_1 (broadcastInDim S1x512 ![1] bcast_S512_S1x512_1
              (Host.rsqrt (addf va (broadcastInDim S512 ![] bcast_S_S512 (constant S_ .f32 0x3727C5AC#32)))))))
          (broadcastInDim S50000x512 ![0, 1] bcast_S1x512_S50000x512_0_1 (broadcastInDim S1x512 ![1] bcast_S512_S1x512_1 g)))
        (broadcastInDim S50000x512 ![0, 1] bcast_S1x512_S50000x512_0_1 (broadcastInDim S1x512 ![1] bcast_S512_S1x512_1 bt)))
      w2)
    (broadcastInDim S50000x512 ![0, 1] bcast_S1x512_S50000x512_0_1 (broadcastInDim S1x512 ![1] bcast_S512_S1x512_1 b2))

end Cert.ReferenceIdeal.RefT

end
-- ==== Proof.RefRun.lean ====
/-
  The reference program's run, read back: its straight line as a list of operations (the three functions it
  calls unfolded at their calls), and the contents of its result buffer after every weakly fair execution as
  the composed stages of RefTerms applied to the launch contents of its arguments, the arguments unchanged.
-/
import proofs.«154781_j36120674959489_1_alg».proof.Proof.RefTerms
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations in order, the three functions it calls unfolded at their calls, each
    operation over the buffers of the call that runs it. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst (constant S_ .f32 0x00000000#32),
    unary main_cst main_v11 (broadcastInDim S50000x256 ![] bcast_S_S50000x256 : (⟨S_, .f32⟩ : BufTy).Contents (Elt F) → (⟨S50000x256, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_arg0 main_v13 main_v14 (addf : (⟨S50000x256, .f32⟩ : BufTy).Contents (Elt F) → (⟨S50000x256, .f32⟩ : BufTy).Contents (Elt F) → (⟨S50000x256, .f32⟩ : BufTy).Contents (Elt F)),
    binary main_v14 main_arg2 main_v15 ((fun l r => Host.dotGeneral dot_S50000x256_S256x512_S50000x512_1_0_0_1_n_n none l r) : (⟨S50000x256, .f32⟩ : BufTy).Contents (Elt F) → (⟨S256x512, .f32⟩ : BufTy).Contents (Elt F) → (⟨S50000x512, .f32⟩ : BufTy).Contents (Elt F)),
    unary main_arg3 main_v16 (broadcastInDim S1x512 ![1] bcast_S512_S1x512_1 : (⟨S512, .f32⟩ : BufTy).Contents (Elt F) → (⟨S1x512, .f32⟩ : BufTy).Contents (Elt F)),
    unary main_v16 main_v17 (broadcastInDim S50000x512 ![0, 1] bcast_S1x512_S50000x512_0_1 : (⟨S1x512, .f32⟩ : BufTy).Contents (Elt F) → (⟨S50000x512, .f32⟩ : BufTy).Contents (Elt F)),
    binary main_v15 main_v17 main_v18 (addf : (⟨S50000x512, .f32⟩ : BufTy).Contents (Elt F) → (⟨S50000x512, .f32⟩ : BufTy).Contents (Elt F) → (⟨S50000x512, .f32⟩ : BufTy).Contents (Elt F)),
    nullary main_call0_cst (constant S_ .f32 0x00000000#32),
    unary main_call0_cst main_call0_v0 (broadcastInDim S50000x512 ![] bcast_S_S50000x512 : (⟨S_, .f32⟩ : BufTy).Contents (Elt F) → (⟨S50000x512, .f32⟩ : BufTy).Contents (Elt F)),
    binary main_v18 main_call0_v0 main_v19 (maximumf : (⟨S50000x512, .f32⟩ : BufTy).Contents (Elt F) → (⟨S50000x512, .f32⟩ : BufTy).Contents (Elt F) → (⟨S50000x512, .f32⟩ : BufTy).Contents (Elt F)),
    nullary main_cst_1 (constant S_ .f32 0x00000000#32),
    binary main_v19 main_cst_1 main_v20 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    nullary main_cst_2 (constant S_ .f32 0x47435000#32),
    unary main_cst_2 main_v21 (broadcastInDim S512 ![] bcast_S_S512 : (⟨S_, .f32⟩ : BufTy).Contents (Elt F) → (⟨S512, .f32⟩ : BufTy).Contents (Elt F)),
    binary main_v20 main_v21 main_v22 (Host.divf : (⟨S512, .f32⟩ : BufTy).Contents (Elt F) → (⟨S512, .f32⟩ : BufTy).Contents (Elt F) → (⟨S512, .f32⟩ : BufTy).Contents (Elt F)),
    nullary main_c_3 (constantI S_ 32 0#32),
    nullary main_call1_cst (constant S_ .f32 0x00000000#32),
    binary main_v19 main_call1_cst main_call1_v0 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    unary main_call1_v0 main_call1_v1 (broadcastInDim S1x512 ![1] bcast_S512_S1x512_1 : (⟨S512, .f32⟩ : BufTy).Contents (Elt F) → (⟨S1x512, .f32⟩ : BufTy).Contents (Elt F)),
    nullary main_call1_cst_0 (constant S_ .f32 0x47435000#32),
    unary main_call1_cst_0 main_call1_v2 (broadcastInDim S1x512 ![] bcast_S_S1x512 : (⟨S_, .f32⟩ : BufTy).Contents (Elt F) → (⟨S1x512, .f32⟩ : BufTy).Contents (Elt F)),
    binary main_call1_v1 main_call1_v2 main_call1_v3 (Host.divf : (⟨S1x512, .f32⟩ : BufTy).Contents (Elt F) → (⟨S1x512, .f32⟩ : BufTy).Contents (Elt F) → (⟨S1x512, .f32⟩ : BufTy).Contents (Elt F)),
    unary main_call1_v3 main_call1_v4 (broadcastInDim S50000x512 ![0, 1] bcast_S1x512_S50000x512_0_1 : (⟨S1x512, .f32⟩ : BufTy).Contents (Elt F) → (⟨S50000x512, .f32⟩ : BufTy).Contents (Elt F)),
    binary main_v19 main_call1_v4 main_call1_v5 (subf : (⟨S50000x512, .f32⟩ : BufTy).Contents (Elt F) → (⟨S50000x512, .f32⟩ : BufTy).Contents (Elt F) → (⟨S50000x512, .f32⟩ : BufTy).Contents (Elt F)),
    binary main_call1_v5 main_call1_v5 main_call1_v6 (mulf : (⟨S50000x512, .f32⟩ : BufTy).Contents (Elt F) → (⟨S50000x512, .f32⟩ : BufTy).Contents (Elt F) → (⟨S50000x512, .f32⟩ : BufTy).Contents (Elt F)),
    unary main_c_3 main_call1_v7 (sitofp .f32 : (⟨S_, .i32⟩ : BufTy).Contents (Elt F) → (⟨S_, .f32⟩ : BufTy).Contents (Elt F)),
    nullary main_call1_cst_1 (constant S_ .f32 0x47435000#32),
    binary main_call1_cst_1 main_call1_v7 main_call1_v8 (subf : (⟨S_, .f32⟩ : BufTy).Contents (Elt F) → (⟨S_, .f32⟩ : BufTy).Contents (Elt F) → (⟨S_, .f32⟩ : BufTy).Contents (Elt F)),
    nullary main_call1_cst_2 (constant S_ .f32 0x00000000#32),
    binary main_call1_v6 main_call1_cst_2 main_call1_v9 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    unary main_call1_v8 main_call1_v10 (broadcastInDim S512 ![] bcast_S_S512 : (⟨S_, .f32⟩ : BufTy).Contents (Elt F) → (⟨S512, .f32⟩ : BufTy).Contents (Elt F)),
    binary main_call1_v9 main_call1_v10 main_call1_v11 (Host.divf : (⟨S512, .f32⟩ : BufTy).Contents (Elt F) → (⟨S512, .f32⟩ : BufTy).Contents (Elt F) → (⟨S512, .f32⟩ : BufTy).Contents (Elt F)),
    nullary main_call1_cst_3 (constant S_ .f32 0x00000000#32),
    binary main_call1_v8 main_call1_cst_3 main_call1_v12 (cmpf .ogt : (⟨S_, .f32⟩ : BufTy).Contents (Elt F) → (⟨S_, .f32⟩ : BufTy).Contents (Elt F) → (⟨S_, .i1⟩ : BufTy).Contents (Elt F)),
    nullary main_call1_cst_4 (constant S_ .f32 0x7FC00000#32),
    unary main_call1_cst_4 main_call1_call0_v0 (id : (⟨S_, .f32⟩ : BufTy).Contents (Elt F) → (⟨S_, .f32⟩ : BufTy).Contents (Elt F)),
    unary main_call1_call0_v0 main_call1_call0_v1 (broadcastInDim S512 ![] bcast_S_S512 : (⟨S_, .f32⟩ : BufTy).Contents (Elt F) → (⟨S512, .f32⟩ : BufTy).Contents (Elt F)),
    ternary main_call1_v12 main_call1_v11 main_call1_call0_v1 main_v23 ((fun p a b => select (broadcastInDim S512 ![] bcast_S_S512 p) a b) : (⟨S_, .i1⟩ : BufTy).Contents (Elt F) → (⟨S512, .f32⟩ : BufTy).Contents (Elt F) → (⟨S512, .f32⟩ : BufTy).Contents (Elt F) → (⟨S512, .f32⟩ : BufTy).Contents (Elt F)),
    unary main_v22 main_v24 (broadcastInDim S1x512 ![1] bcast_S512_S1x512_1 : (⟨S512, .f32⟩ : BufTy).Contents (Elt F) → (⟨S1x512, .f32⟩ : BufTy).Contents (Elt F)),
    unary main_v24 main_v25 (broadcastInDim S50000x512 ![0, 1] bcast_S1x512_S50000x512_0_1 : (⟨S1x512, .f32⟩ : BufTy).Contents (Elt F) → (⟨S50000x512, .f32⟩ : BufTy).Contents (Elt F)),
    binary main_v19 main_v25 main_v26 (subf : (⟨S50000x512, .f32⟩ : BufTy).Contents (Elt F) → (⟨S50000x512, .f32⟩ : BufTy).Contents (Elt F) → (⟨S50000x512, .f32⟩ : BufTy).Contents (Elt F)),
    nullary main_cst_4 (constant S_ .f32 0x3727C5AC#32),
    unary main_cst_4 main_v27 (broadcastInDim S512 ![] bcast_S_S512 : (⟨S_, .f32⟩ : BufTy).Contents (Elt F) → (⟨S512, .f32⟩ : BufTy).Contents (Elt F)),
    binary main_v23 main_v27 main_v28 (addf : (⟨S512, .f32⟩ : BufTy).Contents (Elt F) → (⟨S512, .f32⟩ : BufTy).Contents (Elt F) → (⟨S512, .f32⟩ : BufTy).Contents (Elt F)),
    unary main_v28 main_v29 (Host.rsqrt : (⟨S512, .f32⟩ : BufTy).Contents (Elt F) → (⟨S512, .f32⟩ : BufTy).Contents (Elt F)),
    unary main_v29 main_v30 (broadcastInDim S1x512 ![1] bcast_S512_S1x512_1 : (⟨S512, .f32⟩ : BufTy).Contents (Elt F) → (⟨S1x512, .f32⟩ : BufTy).Contents (Elt F)),
    unary main_v30 main_v31 (broadcastInDim S50000x512 ![0, 1] bcast_S1x512_S50000x512_0_1 : (⟨S1x512, .f32⟩ : BufTy).Contents (Elt F) → (⟨S50000x512, .f32⟩ : BufTy).Contents (Elt F)),
    binary main_v26 main_v31 main_v32 (mulf : (⟨S50000x512, .f32⟩ : BufTy).Contents (Elt F) → (⟨S50000x512, .f32⟩ : BufTy).Contents (Elt F) → (⟨S50000x512, .f32⟩ : BufTy).Contents (Elt F)),
    unary main_arg4 main_v33 (broadcastInDim S1x512 ![1] bcast_S512_S1x512_1 : (⟨S512, .f32⟩ : BufTy).Contents (Elt F) → (⟨S1x512, .f32⟩ : BufTy).Contents (Elt F)),
    unary main_v33 main_v34 (broadcastInDim S50000x512 ![0, 1] bcast_S1x512_S50000x512_0_1 : (⟨S1x512, .f32⟩ : BufTy).Contents (Elt F) → (⟨S50000x512, .f32⟩ : BufTy).Contents (Elt F)),
    binary main_v32 main_v34 main_v35 (mulf : (⟨S50000x512, .f32⟩ : BufTy).Contents (Elt F) → (⟨S50000x512, .f32⟩ : BufTy).Contents (Elt F) → (⟨S50000x512, .f32⟩ : BufTy).Contents (Elt F)),
    unary main_arg5 main_v36 (broadcastInDim S1x512 ![1] bcast_S512_S1x512_1 : (⟨S512, .f32⟩ : BufTy).Contents (Elt F) → (⟨S1x512, .f32⟩ : BufTy).Contents (Elt F)),
    unary main_v36 main_v37 (broadcastInDim S50000x512 ![0, 1] bcast_S1x512_S50000x512_0_1 : (⟨S1x512, .f32⟩ : BufTy).Contents (Elt F) → (⟨S50000x512, .f32⟩ : BufTy).Contents (Elt F)),
    binary main_v35 main_v37 main_v38 (addf : (⟨S50000x512, .f32⟩ : BufTy).Contents (Elt F) → (⟨S50000x512, .f32⟩ : BufTy).Contents (Elt F) → (⟨S50000x512, .f32⟩ : BufTy).Contents (Elt F)),
    binary main_v38 main_arg6 main_v39 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    unary main_arg7 main_v40 (broadcastInDim S1x512 ![1] bcast_S512_S1x512_1 : (⟨S512, .f32⟩ : BufTy).Contents (Elt F) → (⟨S1x512, .f32⟩ : BufTy).Contents (Elt F)),
    unary main_v40 main_v41 (broadcastInDim S50000x512 ![0, 1] bcast_S1x512_S50000x512_0_1 : (⟨S1x512, .f32⟩ : BufTy).Contents (Elt F) → (⟨S50000x512, .f32⟩ : BufTy).Contents (Elt F)),
    binary main_v39 main_v41 main_v42 (addf : (⟨S50000x512, .f32⟩ : BufTy).Contents (Elt F) → (⟨S50000x512, .f32⟩ : BufTy).Contents (Elt F) → (⟨S50000x512, .f32⟩ : BufTy).Contents (Elt F)) ]

-- the reduction over the hidden table is compared as a name, never opened
attribute [local irreducible] Host.reduceAdd in
set_option maxRecDepth 8192 in
set_option maxHeartbeats 1000000 in
/-- The program is that straight line: a call is its callee's body on the call's buffers, and a typed
    reference at a literal buffer moves contents by the identity. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub .., nullary_bufs_sub .., unary_bufs_sub ..,
    binary_bufs_sub .., nullary_bufs_sub .., binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub .., binary_bufs_sub .., unary_bufs_sub ..,
    unary_bufs_sub .., binary_bufs_sub .., unary_bufs_sub .., unary_bufs_sub .., binary_bufs_sub .., binary_bufs_sub .., unary_bufs_sub .., unary_bufs_sub ..,
    binary_bufs_sub ..⟩

set_option maxRecDepth 8192 in
set_option maxHeartbeats 2000000 in
/-- The fold of the operations at the result buffer is the composed stages: each operation's result at its own
    buffer is its function of its operands' contents, and at any other buffer what was there. -/
theorem res_v42 (V : Valuation τ sig (Elt F)) :
    after ops V (Proc.devRef .tc main_v42) = RefT.out (RefT.hid (addf (V (Proc.devRef .tc main_arg0)) (RefT.agg (V (Proc.devRef .tc main_arg0)) (V (Proc.devRef .tc main_arg1)))) (V (Proc.devRef .tc main_arg2)) (V (Proc.devRef .tc main_arg3))) (RefT.mean (RefT.hid (addf (V (Proc.devRef .tc main_arg0)) (RefT.agg (V (Proc.devRef .tc main_arg0)) (V (Proc.devRef .tc main_arg1)))) (V (Proc.devRef .tc main_arg2)) (V (Proc.devRef .tc main_arg3)))) (RefT.var (RefT.hid (addf (V (Proc.devRef .tc main_arg0)) (RefT.agg (V (Proc.devRef .tc main_arg0)) (V (Proc.devRef .tc main_arg1)))) (V (Proc.devRef .tc main_arg2)) (V (Proc.devRef .tc main_arg3)))) (V (Proc.devRef .tc main_arg4)) (V (Proc.devRef .tc main_arg5)) (V (Proc.devRef .tc main_arg6)) (V (Proc.devRef .tc main_arg7)) := by
  after_results_simp
  rfl

section Args
/-! No operation writes an argument buffer. -/
set_option maxRecDepth 8192
set_option maxHeartbeats 2000000
theorem res_arg0 (V : Valuation τ sig (Elt F)) :
    after ops V (Proc.devRef .tc main_arg0) = V (Proc.devRef .tc main_arg0) := by
  after_results_simp
theorem res_arg1 (V : Valuation τ sig (Elt F)) :
    after ops V (Proc.devRef .tc main_arg1) = V (Proc.devRef .tc main_arg1) := by
  after_results_simp
theorem res_arg2 (V : Valuation τ sig (Elt F)) :
    after ops V (Proc.devRef .tc main_arg2) = V (Proc.devRef .tc main_arg2) := by
  after_results_simp
theorem res_arg3 (V : Valuation τ sig (Elt F)) :
    after ops V (Proc.devRef .tc main_arg3) = V (Proc.devRef .tc main_arg3) := by
  after_results_simp
theorem res_arg4 (V : Valuation τ sig (Elt F)) :
    after ops V (Proc.devRef .tc main_arg4) = V (Proc.devRef .tc main_arg4) := by
  after_results_simp
theorem res_arg5 (V : Valuation τ sig (Elt F)) :
    after ops V (Proc.devRef .tc main_arg5) = V (Proc.devRef .tc main_arg5) := by
  after_results_simp
theorem res_arg6 (V : Valuation τ sig (Elt F)) :
    after ops V (Proc.devRef .tc main_arg6) = V (Proc.devRef .tc main_arg6) := by
  after_results_simp
theorem res_arg7 (V : Valuation τ sig (Elt F)) :
    after ops V (Proc.devRef .tc main_arg7) = V (Proc.devRef .tc main_arg7) := by
  after_results_simp
end Args

/-- On every device, for any float values, from any memory with zero counters: every weakly fair execution of
    the program terminates with the result buffer at the composed stages of the arguments' launch contents and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = RefT.out (RefT.hid (addf (m ((c.tc : Thread nD τ).loc main_arg0)) (RefT.agg (m ((c.tc : Thread nD τ).loc main_arg0)) (m ((c.tc : Thread nD τ).loc main_arg1)))) (m ((c.tc : Thread nD τ).loc main_arg2)) (m ((c.tc : Thread nD τ).loc main_arg3))) (RefT.mean (RefT.hid (addf (m ((c.tc : Thread nD τ).loc main_arg0)) (RefT.agg (m ((c.tc : Thread nD τ).loc main_arg0)) (m ((c.tc : Thread nD τ).loc main_arg1)))) (m ((c.tc : Thread nD τ).loc main_arg2)) (m ((c.tc : Thread nD τ).loc main_arg3)))) (RefT.var (RefT.hid (addf (m ((c.tc : Thread nD τ).loc main_arg0)) (RefT.agg (m ((c.tc : Thread nD τ).loc main_arg0)) (m ((c.tc : Thread nD τ).loc main_arg1)))) (m ((c.tc : Thread nD τ).loc main_arg2)) (m ((c.tc : Thread nD τ).loc main_arg3)))) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v42).trans (res_v42 _),
      (h c main_arg0).trans (res_arg0 _),
      (h c main_arg1).trans (res_arg1 _),
      (h c main_arg2).trans (res_arg2 _),
      (h c main_arg3).trans (res_arg3 _),
      (h c main_arg4).trans (res_arg4 _),
      (h c main_arg5).trans (res_arg5 _),
      (h c main_arg6).trans (res_arg6 _),
      (h c main_arg7).trans (res_arg7 _)⟩)
    (run_seq scopedRefs_eq scopedSems_eq defs main (fun _ => ops) main_eq (fun _ => ops_sub) m ρ)

end Cert.ReferenceIdeal.RefRun

end
-- ==== Proof.RefRead.lean ====
/-
  The reference program's stages read at an index, over the extended reals: each is the index-level mathematics of
  Spec.lean.  A broadcast of a scalar reads the scalar, a broadcast of a row down the rows reads the row at the
  column, a column sum is the initial value plus the sum over the rows, and a plain matrix product is the sum over
  the middle coordinate.
-/
import proofs.«154781_j36120674959489_1_alg».proof.Proof.RefTerms
import proofs.«154781_j36120674959489_1_alg».proof.Proof.SpecLaws
import proofs.«154781_j36120674959489_1_alg».proof.Proof.LibPlainDot
import Idealize.ShloMosaic.Lib.Pipeline.Value

noncomputable section

open scoped BigOperators

namespace Cert.ReferenceIdeal.RefRead

open Cert.ReferenceIdeal Idealize.ShloMosaic Idealize.ShloMosaic.ValueIdx
open Cert.ReferenceIdeal.Facts₀

/-! ### Layout operations at an index -/

/-- A broadcast scalar reads the scalar. -/
theorem bcast0_apply {α : Type} {t : Shape} (h : S_.BroadcastsInDim t (![] : Fin 0 → Fin t.rank)) (x : S_.Idx → α)
    (j : t.Idx) : broadcastInDim t ![] h x j = x ix0 :=
  broadcastInDim_apply _ h x j ix0 (fun a => a.elim0)

/-- A one-row table broadcast down the rows reads the row at the column. -/
theorem bc01_apply {α : Type} (h : S1x512.BroadcastsInDim S50000x512 (![0, 1] : Fin 2 → Fin S50000x512.rank))
    (y : S1x512.Idx → α) (i : Fin 50000) (k : Fin 512) :
    broadcastInDim S50000x512 ![0, 1] h y (ix2 i k) = y (ix2 (0 : Fin 1) k) :=
  broadcastInDim_apply _ h y (ix2 i k) (ix2 (0 : Fin 1) k)
    (fun a => by match a with | ⟨0, _⟩ => rfl | ⟨1, _⟩ => rfl)

/-- A vector laid out as a one-row table reads the vector at the column. -/
theorem bc1_apply {α : Type} (h : S512.BroadcastsInDim S1x512 (![1] : Fin 1 → Fin S1x512.rank))
    (b : S512.Idx → α) (k : Fin 512) :
    broadcastInDim S1x512 ![1] h b (ix2 (0 : Fin 1) k) = b (ix1 k) :=
  broadcastInDim_apply _ h b (ix2 (0 : Fin 1) k) (ix1 k) (fun a => by match a with | ⟨0, _⟩ => rfl)

/-- A vector broadcast down the rows reads the vector at the column. -/
theorem row_apply {α : Type} (h1 : S1x512.BroadcastsInDim S50000x512 (![0, 1] : Fin 2 → Fin S50000x512.rank))
    (h2 : S512.BroadcastsInDim S1x512 (![1] : Fin 1 → Fin S1x512.rank)) (b : S512.Idx → α) (i : Fin 50000)
    (k : Fin 512) :
    broadcastInDim S50000x512 ![0, 1] h1 (broadcastInDim S1x512 ![1] h2 b) (ix2 i k) = b (ix1 k) := by
  rw [bc01_apply, bc1_apply]

/-- The host's quotient at an index is the quotient of the elements. -/
theorem hdivf_apply {s : Shape} {φ : FTy} (a b : FVec Ideal s φ) (i : s.Idx) :
    Host.divf a b i = Ideal.div (a i) (b i) := rfl

/-- The host's reciprocal square root at an index is that of the element. -/
theorem hrsqrt_apply {s : Shape} {φ : FTy} (a : FVec Ideal s φ) (i : s.Idx) :
    Host.rsqrt a i = Ideal.rsqrt (a i) := rfl

/-- A column sum started from a constant: the constant plus the sum down the rows. -/
theorem colsum_apply (hr : S50000x512.ReducesTo [0] S512) (hu : 0 < S_.numel) (y : FVec Ideal S50000x512 .f32)
    (z : BitVec 32) (k : Fin 512) :
    Host.reduceAdd y (constant S_ .f32 z) hr hu (ix1 k) = Ideal.ofBits .f32 z + ∑ i : Fin 50000, y (ix2 i k) := by
  have hR : S50000x512.Reduces [0] S512 := by decide
  have e : ∀ i : Fin 50000, hR.lift (ix1 k) i = ix2 i k := fun i => by
    funext a; match a with | ⟨0, _⟩ => rfl | ⟨1, _⟩ => rfl
  refine (Ideal.hostReduceAdd_single hr hR y _ (ix1 k)).trans ?_
  show _ + ∑ i : Fin 50000, y (hR.lift (ix1 k) i) = _
  simp only [e]
  rfl

/-- A plain product of a 50000-row table with a matrix, at an index: the sum over the middle coordinate. -/
theorem dot_apply {K N : Nat} (d : DotDims ⟨2, ![50000, K]⟩ ⟨2, ![K, N]⟩ ⟨2, ![50000, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![50000, K]⟩ .f32) (r : FVec Ideal ⟨2, ![K, N]⟩ .f32) (i : Fin 50000) (k : Fin N) :
    Host.dotGeneral d none l r (ix2 i k) = ∑ q : Fin K, l (ix2 i q) * r (ix2 q k) :=
  (Ideal.dotGeneral_apply d none .single l r (ix2 i k)).trans
    (Cert.LibPlainDot.plain_sum d hlc hrc hln hrn hlb hrb (fun p q => l p * r q) i k)

/-! ### The hidden layer -/

theorem hid_apply (xa : FVec Ideal S50000x256 .f32)
    (w1 : FVec Ideal S256x512 .f32) (b1 : FVec Ideal S512 .f32)
    (i : Fin 50000) (k : Fin 512) :
    RefT.hid (F := Ideal) xa w1 b1 (ix2 i k)
      = max (∑ j : Fin 256, xa (ix2 i j) * w1 (ix2 j k) + b1 (ix1 k)) Cert.Spec.zero := by
  unfold RefT.hid
  rw [maximumf_apply, addf_apply, row_apply, bcast0_apply,
    dot_apply dot_S50000x256_S256x512_S50000x512_1_0_0_1_n_n rfl rfl rfl rfl rfl rfl]
  rfl

/-- With the summed features `x + a` it is the hidden layer of Spec.lean. -/
theorem hid_eq_spec (x a : FVec Ideal S50000x256 .f32)
    (w1 : FVec Ideal S256x512 .f32) (b1 : FVec Ideal S512 .f32)
    (i : Fin 50000) (k : Fin 512) :
    RefT.hid (F := Ideal) (addf (F := Ideal) x a) w1 b1 (ix2 i k) = Cert.Spec.hid x a w1 (fun k => b1 (ix1 k)) i k := by
  rw [hid_apply]
  rfl

/-! ### The column mean -/

theorem mean_apply (h : FVec Ideal S50000x512 .f32) (k : Fin 512) :
    RefT.mean (F := Ideal) h (ix1 k) = Cert.Spec.meanR (fun i k => h (ix2 i k)) k := by
  unfold RefT.mean
  rw [hdivf_apply, colsum_apply, bcast0_apply]
  rfl

/-! ### The column variance -/

/-- The word `0` read as a signed integer is `0`. -/
theorem toInt_zero32 : (0#32 : BitVec 32).toInt = 0 := by decide

/-- The divisor `50000 − 0` is above zero. -/
theorem divisor_pos :
    Ideal.cmp .ogt (Cert.Spec.c50000 - (((0 : ℤ) : ℝ) : EReal)) Cert.Spec.zero = 1#1 := by
  rw [Cert.Spec.divisor_eq, Cert.Spec.ofBits_zero]
  have : (0 : EReal) < ((50000 : ℝ) : EReal) := by exact_mod_cast (by norm_num : (0 : ℝ) < 50000)
  simp [Ideal.cmp, this]

/-- A deviation from the column mean, the mean formed as a one-row table and broadcast down the rows. -/
theorem dev_apply (h : FVec Ideal S50000x512 .f32) (i : Fin 50000) (k : Fin 512) :
    subf (F := Ideal) h (broadcastInDim S50000x512 ![0, 1] bcast_S1x512_S50000x512_0_1
      (Host.divf
        (broadcastInDim S1x512 ![1] bcast_S512_S1x512_1
          (Host.reduceAdd h (constant S_ .f32 0x00000000#32) reducesTo_S50000x512_S512_d0 h_S_))
        (broadcastInDim S1x512 ![] bcast_S_S1x512 (constant S_ .f32 0x47435000#32)))) (ix2 i k)
      = h (ix2 i k) - Cert.Spec.meanR (fun i k => h (ix2 i k)) k := by
  rw [subf_apply, bc01_apply, hdivf_apply, bc1_apply, colsum_apply, bcast0_apply]
  rfl

theorem var_apply (h : FVec Ideal S50000x512 .f32) (k : Fin 512) :
    RefT.var (F := Ideal) h (ix1 k) = Cert.Spec.varR (fun i k => h (ix2 i k)) k := by
  unfold RefT.var
  rw [select_apply, bcast0_apply]
  have hc : cmpf (F := Ideal) .ogt (subf (constant S_ .f32 0x47435000#32) (sitofp .f32 (constantI S_ 32 0#32)))
      (constant S_ .f32 0x00000000#32) ix0 = 1#1 := by
    show Ideal.cmp .ogt (Cert.Spec.c50000 - ((((0#32 : BitVec 32).toInt : ℤ) : ℝ) : EReal)) Cert.Spec.zero = 1#1
    rw [toInt_zero32]
    exact divisor_pos
  rw [hc, select_one, hdivf_apply, colsum_apply, bcast0_apply]
  have hs : ∀ i : Fin 50000, mulf (F := Ideal)
      (subf h (broadcastInDim S50000x512 ![0, 1] bcast_S1x512_S50000x512_0_1
        (Host.divf
          (broadcastInDim S1x512 ![1] bcast_S512_S1x512_1
            (Host.reduceAdd h (constant S_ .f32 0x00000000#32) reducesTo_S50000x512_S512_d0 h_S_))
          (broadcastInDim S1x512 ![] bcast_S_S1x512 (constant S_ .f32 0x47435000#32)))))
      (subf h (broadcastInDim S50000x512 ![0, 1] bcast_S1x512_S50000x512_0_1
        (Host.divf
          (broadcastInDim S1x512 ![1] bcast_S512_S1x512_1
            (Host.reduceAdd h (constant S_ .f32 0x00000000#32) reducesTo_S50000x512_S512_d0 h_S_))
          (broadcastInDim S1x512 ![] bcast_S_S1x512 (constant S_ .f32 0x47435000#32))))) (ix2 i k)
      = (h (ix2 i k) - Cert.Spec.meanR (fun i k => h (ix2 i k)) k)
        * (h (ix2 i k) - Cert.Spec.meanR (fun i k => h (ix2 i k)) k) := fun i => by
    rw [mulf_apply, dev_apply]
  rw [Finset.sum_congr rfl fun i _ => hs i]
  show Ideal.div _ (Cert.Spec.c50000 - ((((0#32 : BitVec 32).toInt : ℤ) : ℝ) : EReal)) = _
  rw [toInt_zero32]
  rfl

/-! ### The output -/

theorem out_apply (h : FVec Ideal S50000x512 .f32)
    (mu va g bt : FVec Ideal S512 .f32) (w2 : FVec Ideal S512x512 .f32)
    (b2 : FVec Ideal S512 .f32) (i : Fin 50000) (k : Fin 512) :
    RefT.out (F := Ideal) h mu va g bt w2 b2 (ix2 i k)
      = Cert.Spec.outv (fun i k => h (ix2 i k)) (fun k => mu (ix1 k)) (fun k => va (ix1 k)) (fun k => g (ix1 k))
          (fun k => bt (ix1 k)) w2 (fun k => b2 (ix1 k)) i k := by
  unfold RefT.out
  rw [addf_apply, row_apply,
    dot_apply dot_S50000x512_S512x512_S50000x512_1_0_0_1_n_n rfl rfl rfl rfl rfl rfl]
  unfold Cert.Spec.outv
  refine congrArg (· + b2 (ix1 k)) (Finset.sum_congr rfl fun q _ => congrArg (· * w2 (ix2 q k)) ?_)
  rw [addf_apply, mulf_apply, mulf_apply, subf_apply, row_apply, row_apply, row_apply, row_apply, hrsqrt_apply,
    addf_apply, bcast0_apply]
  rfl

end Cert.ReferenceIdeal.RefRead

end
-- ==== Proof.Finite.lean ====
/-
  From the precondition to real-valued inputs.  The predicate is the conjunction, over the seven float inputs, of
  "every entry's absolute value is below +∞"; an extended real whose absolute value is below +∞ is neither
  infinity, so it is a real number.
-/
import proofs.«154781_j36120674959489_1_alg».proof.Proof.SpecLaws
import proofs.«154781_j36120674959489_1_alg».proof.Proof.Gen.Pre_finite_inputs
import Idealize.ShloMosaic.Lib.ReduceAll

noncomputable section

namespace Cert.Spec

open Idealize.ShloMosaic Idealize.ShloMosaic.ValueIdx
open Cert.Pre_finite_inputs

/-- The shape of rank zero has one index. -/
instance subsingleton_S_ : Subsingleton S_.Idx := ⟨fun a b => funext fun d => d.elim0⟩

/-- The pattern `0x7F800000` denotes `+∞`. -/
theorem ofBits_inf : Ideal.ofBits .f32 0x7F800000#32 = (⊤ : EReal) := by
  simp [Ideal.ofBits, Ideal.ieee]

/-- An extended real whose absolute value `max x (−x)` is strictly below `+∞` is a real number:
    at either infinity the absolute value is `+∞`. -/
theorem isReal_of_abs_lt (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

/-- One conjunct of the predicate: if "all entries of |x| are below the broadcast +∞" holds, every entry is real. -/
theorem all_real {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi (cmpf .olt (Host.absf x) (broadcastInDim s ![] hb (constant S_ .f32 0x7F800000#32)))
      init hr hu ix0 = 1#1) : ∀ i, IsReal (x i) := by
  intro i
  have hi := Host.reduce_andi_all _ _ hr hu ix0 e i
  exact isReal_of_abs_lt _ hi

/-- Under the precondition every entry of every float input is a real number. -/
theorem inputs_real_all (x : FVec Ideal S50000x256 .f32) (e : IVec S2x800000 32) (w1 : FVec Ideal S256x512 .f32)
    (b1 g bt : FVec Ideal S512 .f32) (w2 : FVec Ideal S512x512 .f32) (b2 : FVec Ideal S512 .f32)
    (h : Cert.Pre_finite_inputs.fn (F := Ideal) x e w1 b1 g bt w2 b2 = (fun _ => 1#1)) :
    (∀ i, IsReal (x i)) ∧ (∀ i, IsReal (w1 i)) ∧ (∀ i, IsReal (b1 i)) ∧ (∀ i, IsReal (g i)) ∧ (∀ i, IsReal (bt i)) ∧
      (∀ i, IsReal (w2 i)) ∧ (∀ i, IsReal (b2 i)) := by
  have h0 := congrFun h ix0
  dsimp only [fn, fn_part1] at h0
  obtain ⟨h28, h32⟩ := IntOp.andi_eq_one.1 h0
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨all_real x _ _ _ _ h3, all_real w1 _ _ _ _ h7, all_real b1 _ _ _ _ h12, all_real g _ _ _ _ h17,
    all_real bt _ _ _ _ h22, all_real w2 _ _ _ _ h27, all_real b2 _ _ _ _ h32⟩

/-- The three inputs the hidden layer reads. -/
theorem inputs_real (x : FVec Ideal S50000x256 .f32) (e : IVec S2x800000 32) (w1 : FVec Ideal S256x512 .f32)
    (b1 g bt : FVec Ideal S512 .f32) (w2 : FVec Ideal S512x512 .f32) (b2 : FVec Ideal S512 .f32)
    (h : Cert.Pre_finite_inputs.fn (F := Ideal) x e w1 b1 g bt w2 b2 = (fun _ => 1#1)) :
    (∀ i, IsReal (x i)) ∧ (∀ i, IsReal (w1 i)) ∧ (∀ i, IsReal (b1 i)) := by
  obtain ⟨hx, hw1, hb1, -⟩ := inputs_real_all x e w1 b1 g bt w2 b2 h
  exact ⟨hx, hw1, hb1⟩

end Cert.Spec

end
-- ==== Proof.Bridge.lean ====
/-
  The reference program's result as the index-level mathematics of Spec.lean, whole array by whole array, and the
  equality of the two ways of forming the column statistics under the precondition: with every float input finite,
  the aggregated features and the hidden layer are real, so  E[h²] − (E[h])²  and  E[(h − E[h])²]  agree.
-/
import proofs.«154781_j36120674959489_1_alg».proof.Proof.RefRead
import proofs.«154781_j36120674959489_1_alg».proof.Proof.Finite
import proofs.«154781_j36120674959489_1_alg».proof.Proof.SpecLaws

noncomputable section

open scoped BigOperators

namespace Cert.Bridge

open Cert.ReferenceIdeal Idealize.ShloMosaic Idealize.ShloMosaic.ValueIdx
open Cert.ReferenceIdeal.Facts₀
open Cert.Spec (IsReal)

/-! ### The reference's result, as the mathematics -/

/-- The reference's output array is the output of Spec.lean on the hidden layer of `x` plus its aggregate, normalised
    by the two-pass column statistics. -/
theorem ref_eq (x : FVec Ideal S50000x256 .f32) (e : IVec S2x800000 32) (w1 : FVec Ideal S256x512 .f32)
    (b1 g bt : FVec Ideal S512 .f32) (w2 : FVec Ideal S512x512 .f32) (b2 : FVec Ideal S512 .f32) :
    RefT.out (F := Ideal) (RefT.hid (F := Ideal) (addf (F := Ideal) x (RefT.agg (F := Ideal) x e)) w1 b1)
        (RefT.mean (F := Ideal) (RefT.hid (F := Ideal) (addf (F := Ideal) x (RefT.agg (F := Ideal) x e)) w1 b1))
        (RefT.var (F := Ideal) (RefT.hid (F := Ideal) (addf (F := Ideal) x (RefT.agg (F := Ideal) x e)) w1 b1))
        g bt w2 b2
      = fun i => Cert.Spec.outv (Cert.Spec.hid x (RefT.agg (F := Ideal) x e) w1 (fun k => b1 (ix1 k)))
          (Cert.Spec.meanR (Cert.Spec.hid x (RefT.agg (F := Ideal) x e) w1 (fun k => b1 (ix1 k))))
          (Cert.Spec.varR (Cert.Spec.hid x (RefT.agg (F := Ideal) x e) w1 (fun k => b1 (ix1 k))))
          (fun k => g (ix1 k)) (fun k => bt (ix1 k)) w2 (fun k => b2 (ix1 k)) (i 0) (i 1) := by
  funext i
  obtain ⟨r, c, rfl⟩ : ∃ r c, i = ix2 r c := ⟨i 0, i 1, eq_ix2 i⟩
  have hH : (fun i k => RefT.hid (F := Ideal) (addf (F := Ideal) x (RefT.agg (F := Ideal) x e)) w1 b1 (ix2 i k))
      = Cert.Spec.hid x (RefT.agg (F := Ideal) x e) w1 (fun k => b1 (ix1 k)) := by
    funext i k
    exact RefRead.hid_eq_spec x (RefT.agg (F := Ideal) x e) w1 b1 i k
  have hM : (fun k => RefT.mean (F := Ideal)
        (RefT.hid (F := Ideal) (addf (F := Ideal) x (RefT.agg (F := Ideal) x e)) w1 b1) (ix1 k))
      = Cert.Spec.meanR (Cert.Spec.hid x (RefT.agg (F := Ideal) x e) w1 (fun k => b1 (ix1 k))) := by
    funext k
    rw [RefRead.mean_apply, hH]
  have hV : (fun k => RefT.var (F := Ideal)
        (RefT.hid (F := Ideal) (addf (F := Ideal) x (RefT.agg (F := Ideal) x e)) w1 b1) (ix1 k))
      = Cert.Spec.varR (Cert.Spec.hid x (RefT.agg (F := Ideal) x e) w1 (fun k => b1 (ix1 k))) := by
    funext k
    rw [RefRead.var_apply, hH]
  rw [RefRead.out_apply, hH, hM, hV]

/-! ### The aggregated features are real -/

/-- The host's scatter-add of real updates into a real operand is real (any shapes). -/
theorem host_scatterAdd_isReal {s si su : Shape} (d : ScatterDims s si su) {w : Nat} (x : FVec Ideal s .f32)
    (idx : IVec si w) (upd : FVec Ideal su .f32) (hx : ∀ i, IsReal (x i)) (hu : ∀ j, IsReal (upd j)) :
    ∀ i, IsReal (Host.scatterAdd d x idx upd i) :=
  Cert.Spec.scatterAdd_isReal d x idx upd hx hu

/-- The host's gather of a real operand is real (any shapes): every result element is an operand element. -/
theorem host_gather_isReal {s si t : Shape} (d : GatherDims s si t) {w : Nat} (x : s.Idx → EReal) (idx : IVec si w)
    (hx : ∀ i, IsReal (x i)) : ∀ j, IsReal (Host.gather d x idx j) :=
  fun j => hx (d.operandIdx j idx)

/-- A broadcast of the zero constant is real. -/
theorem bcast_zero_isReal {t : Shape} (h : S_.BroadcastsInDim t (![] : Fin 0 → Fin t.rank)) (j : t.Idx) :
    IsReal (broadcastInDim (α := Ideal .f32) t ![] h (constant S_ .f32 0x00000000#32) j) := by
  rw [RefRead.bcast0_apply, constant_apply]
  exact Cert.Spec.IsReal.ofBits_zero

/-- A scatter-add of gathered rows of real features into a zero table is real. -/
theorem agg_real (x : FVec Ideal S50000x256 .f32) (e : IVec S2x800000 32) (hx : ∀ i, IsReal (x i)) :
    ∀ i, IsReal (RefT.agg (F := Ideal) x e i) := by
  intro i
  unfold RefT.agg
  exact host_scatterAdd_isReal _ _ _ _ (fun i => bcast_zero_isReal _ i) (host_gather_isReal _ x _ hx) i

/-! ### The two column statistics agree -/

/-- On real features, aggregate, weights and bias the accumulated statistics are the two-pass ones. -/
theorem kr_eq_of_real (x a : FVec Ideal S50000x256 .f32) (w1 : FVec Ideal S256x512 .f32) (b1 : FVec Ideal S512 .f32)
    (w2 : FVec Ideal S512x512 .f32) (G Bt B2 : Fin 512 → EReal)
    (hx : ∀ i, IsReal (x i)) (ha : ∀ i, IsReal (a i)) (hw : ∀ i, IsReal (w1 i)) (hb : ∀ i, IsReal (b1 i)) :
    (fun i : (⟨2, ![50000, 512]⟩ : Shape).Idx =>
        Cert.Spec.outv (Cert.Spec.hid x a w1 (fun k => b1 (ix1 k)))
          (Cert.Spec.meanK (Cert.Spec.hid x a w1 (fun k => b1 (ix1 k))))
          (Cert.Spec.varK (Cert.Spec.hid x a w1 (fun k => b1 (ix1 k)))) G Bt w2 B2 (i 0) (i 1))
      = (fun i =>
        Cert.Spec.outv (Cert.Spec.hid x a w1 (fun k => b1 (ix1 k)))
          (Cert.Spec.meanR (Cert.Spec.hid x a w1 (fun k => b1 (ix1 k))))
          (Cert.Spec.varR (Cert.Spec.hid x a w1 (fun k => b1 (ix1 k)))) G Bt w2 B2 (i 0) (i 1)) := by
  rw [Cert.Spec.mean_eq, Cert.Spec.var_eq _ (Cert.Spec.hid_isReal x a w1 _ hx ha hw (fun k => hb _))]

/-- The same under the precondition, for any real aggregate. -/
theorem kr_eq' (x : FVec Ideal S50000x256 .f32) (e : IVec S2x800000 32) (w1 : FVec Ideal S256x512 .f32)
    (b1 g bt : FVec Ideal S512 .f32) (w2 : FVec Ideal S512x512 .f32) (b2 : FVec Ideal S512 .f32)
    (hpre : Cert.Pre_finite_inputs.fn (F := Ideal) x e w1 b1 g bt w2 b2 = (fun _ => 1#1))
    (a : FVec Ideal S50000x256 .f32) (ha : ∀ i, IsReal (a i)) (G Bt B2 : Fin 512 → EReal) :
    (fun i : (⟨2, ![50000, 512]⟩ : Shape).Idx =>
        Cert.Spec.outv (Cert.Spec.hid x a w1 (fun k => b1 (ix1 k)))
          (Cert.Spec.meanK (Cert.Spec.hid x a w1 (fun k => b1 (ix1 k))))
          (Cert.Spec.varK (Cert.Spec.hid x a w1 (fun k => b1 (ix1 k)))) G Bt w2 B2 (i 0) (i 1))
      = (fun i =>
        Cert.Spec.outv (Cert.Spec.hid x a w1 (fun k => b1 (ix1 k)))
          (Cert.Spec.meanR (Cert.Spec.hid x a w1 (fun k => b1 (ix1 k))))
          (Cert.Spec.varR (Cert.Spec.hid x a w1 (fun k => b1 (ix1 k)))) G Bt w2 B2 (i 0) (i 1)) := by
  obtain ⟨hx, hw, hb⟩ := Cert.Spec.inputs_real x e w1 b1 g bt w2 b2 hpre
  exact kr_eq_of_real x a w1 b1 w2 G Bt B2 hx ha hw hb

/-- The same with the reference's aggregate. -/
theorem kr_eq (x : FVec Ideal S50000x256 .f32) (e : IVec S2x800000 32) (w1 : FVec Ideal S256x512 .f32)
    (b1 g bt : FVec Ideal S512 .f32) (w2 : FVec Ideal S512x512 .f32) (b2 : FVec Ideal S512 .f32)
    (hpre : Cert.Pre_finite_inputs.fn (F := Ideal) x e w1 b1 g bt w2 b2 = (fun _ => 1#1))
    (G Bt B2 : Fin 512 → EReal) :
    (fun i : (⟨2, ![50000, 512]⟩ : Shape).Idx =>
        Cert.Spec.outv (Cert.Spec.hid x (RefT.agg (F := Ideal) x e) w1 (fun k => b1 (ix1 k)))
          (Cert.Spec.meanK (Cert.Spec.hid x (RefT.agg (F := Ideal) x e) w1 (fun k => b1 (ix1 k))))
          (Cert.Spec.varK (Cert.Spec.hid x (RefT.agg (F := Ideal) x e) w1 (fun k => b1 (ix1 k)))) G Bt w2 B2 (i 0) (i 1))
      = (fun i =>
        Cert.Spec.outv (Cert.Spec.hid x (RefT.agg (F := Ideal) x e) w1 (fun k => b1 (ix1 k)))
          (Cert.Spec.meanR (Cert.Spec.hid x (RefT.agg (F := Ideal) x e) w1 (fun k => b1 (ix1 k))))
          (Cert.Spec.varR (Cert.Spec.hid x (RefT.agg (F := Ideal) x e) w1 (fun k => b1 (ix1 k)))) G Bt w2 B2 (i 0) (i 1)) :=
  kr_eq' x e w1 b1 g bt w2 b2 hpre _
    (agg_real x e (Cert.Spec.inputs_real x e w1 b1 g bt w2 b2 hpre).1) G Bt B2

/-! ### End to end -/

/-- Under the precondition, the accumulated-statistics output on an aggregate equal to the reference's is the
    reference's result array. -/
theorem kernel_eq_ref (x : FVec Ideal S50000x256 .f32) (e : IVec S2x800000 32) (w1 : FVec Ideal S256x512 .f32)
    (b1 g bt : FVec Ideal S512 .f32) (w2 : FVec Ideal S512x512 .f32) (b2 : FVec Ideal S512 .f32)
    (hpre : Cert.Pre_finite_inputs.fn (F := Ideal) x e w1 b1 g bt w2 b2 = (fun _ => 1#1))
    (a : FVec Ideal S50000x256 .f32) (haeq : a = RefT.agg (F := Ideal) x e) :
    (fun i : (⟨2, ![50000, 512]⟩ : Shape).Idx =>
        Cert.Spec.outv (Cert.Spec.hid x a w1 (fun k => b1 (ix1 k)))
          (Cert.Spec.meanK (Cert.Spec.hid x a w1 (fun k => b1 (ix1 k))))
          (Cert.Spec.varK (Cert.Spec.hid x a w1 (fun k => b1 (ix1 k))))
          (fun k => g (ix1 k)) (fun k => bt (ix1 k)) w2 (fun k => b2 (ix1 k)) (i 0) (i 1))
      = RefT.out (F := Ideal) (RefT.hid (F := Ideal) (addf (F := Ideal) x (RefT.agg (F := Ideal) x e)) w1 b1)
        (RefT.mean (F := Ideal) (RefT.hid (F := Ideal) (addf (F := Ideal) x (RefT.agg (F := Ideal) x e)) w1 b1))
        (RefT.var (F := Ideal) (RefT.hid (F := Ideal) (addf (F := Ideal) x (RefT.agg (F := Ideal) x e)) w1 b1))
        g bt w2 b2 := by
  subst haeq
  exact (kr_eq x e w1 b1 g bt w2 b2 hpre _ _ _).trans (ref_eq x e w1 b1 g bt w2 b2).symm

end Cert.Bridge

end
-- ==== Proof.AggEq.lean ====
/-
  The two programs aggregate the features by the same operations: gather each edge's source row, add it into the
  edge's destination row of a zero table.  Their two terms name the same functions, applied to dimension records
  that hold the same numbers and to proofs of the same facts, so they are one function of the features and the edges.
-/
import proofs.«154781_j36120674959489_1_alg».proof.Proof.KHost
import proofs.«154781_j36120674959489_1_alg».proof.Proof.RefTerms

noncomputable section

namespace Cert.AggEq

open Idealize.ShloMosaic

/-- The two scatter records hold the same numbers. -/
theorem scatter_eq :
    Cert.KernelIdeal.scatter_S50000x256_S800000x1_S800000x256_1_0_0_1
      = Cert.ReferenceIdeal.scatter_S50000x256_S800000x1_S800000x256_1_0_0_1 := rfl

/-- The two gather records hold the same numbers. -/
theorem gather_eq :
    Cert.KernelIdeal.gather_S50000x256_S800000x1_S800000x256_1_0_n_n_0_1_1256
      = Cert.ReferenceIdeal.gather_S50000x256_S800000x1_S800000x256_1_0_n_n_0_1_1256 := rfl

variable {F : FTy → Type} [FloatOps F]

/-- The aggregated features of the one program are those of the other. -/
theorem agg_eq (x : (⟨2, ![50000, 256]⟩ : Shape).Idx → F .f32) (e : IVec ⟨2, ![2, 800000]⟩ 32) :
    Cert.KernelIdeal.KHost.agg (F := F) x e = Cert.ReferenceIdeal.RefT.agg (F := F) x e := by
  unfold Cert.KernelIdeal.KHost.agg Cert.KernelIdeal.KHost.srcWrapped Cert.KernelIdeal.KHost.srcRow
    Cert.KernelIdeal.KHost.dstRow Cert.ReferenceIdeal.RefT.agg
  rw [scatter_eq, gather_eq]

end Cert.AggEq

end
-- ==== Proof.lean ====
/-
  Two programs compute one graph-network layer: each node's feature row plus the sum of its in-neighbours' rows meets a
  first weight matrix and bias and is floored at zero; every hidden column is normalised by its mean and variance over
  all 50000 nodes, scaled, shifted, and meets a second weight matrix and bias.  The kernel program does the first layer
  in 25 blocks of 2000 rows, accumulating each hidden column's sum and sum of squares as it goes, forms the mean as
  sum / 50000 and the variance as (sum of squares) / 50000 − mean², and does the second layer in 25 blocks.  The
  reference forms the mean of each column and then the mean of the squared deviations from it.

  Over the extended reals, where a change of float format is the identity and sums may be regrouped, both results are
  the same function of the inputs, index by index, provided the two variance formulas agree — and they do exactly when
  every hidden value is a real number.  That is where the precondition is used: finite inputs make every aggregated
  feature a finite sum of reals, every hidden value a maximum of a real and zero, and then
  (Σ h²)/N − ((Σ h)/N)² = (Σ (h − (Σ h)/N)²)/N is an identity of real numbers.

  The three frames are the programs' runs with the result forgotten.  The idealization rewrote nothing.
-/
import proofs.«154781_j36120674959489_1_alg».proof.Defs
import proofs.«154781_j36120674959489_1_alg».proof.Proof.Gen.Kernel
import proofs.«154781_j36120674959489_1_alg».proof.Proof.Gen.Kernel.Skeleton
import proofs.«154781_j36120674959489_1_alg».proof.Proof.Gen.Kernel.Launch
import proofs.«154781_j36120674959489_1_alg».proof.Proof.Gen.Kernel.Points
import proofs.«154781_j36120674959489_1_alg».proof.Proof.Gen.Kernel.Frame
import proofs.«154781_j36120674959489_1_alg».proof.Proof.Gen.KernelIdeal
import proofs.«154781_j36120674959489_1_alg».proof.Proof.Gen.KernelIdeal.Skeleton
import proofs.«154781_j36120674959489_1_alg».proof.Proof.Gen.KernelIdeal.Launch
import proofs.«154781_j36120674959489_1_alg».proof.Proof.Gen.KernelIdeal.Points
import proofs.«154781_j36120674959489_1_alg».proof.Proof.Gen.KernelIdeal.Frame
import proofs.«154781_j36120674959489_1_alg».proof.Proof.Gen.ReferenceIdeal
import proofs.«154781_j36120674959489_1_alg».proof.Proof.Gen.Pre_finite_inputs
import proofs.«154781_j36120674959489_1_alg».proof.Proof.K0Stats
import proofs.«154781_j36120674959489_1_alg».proof.Proof.KRun
import proofs.«154781_j36120674959489_1_alg».proof.Proof.RefRun
import proofs.«154781_j36120674959489_1_alg».proof.Proof.Bridge
import proofs.«154781_j36120674959489_1_alg».proof.Proof.AggEq
import Idealize.ShloMosaic.Adequacy
import Idealize.ShloMosaic.Init

noncomputable section

namespace Cert.Proof

open Idealize.ShloMosaic Idealize.SL.Sem Idealize.ShloMosaic.ValueIdx

/-- The word-level kernel runs and leaves its arguments as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, with its result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization is the kernel's own text read over the extended reals: nothing was rewritten. -/
theorem preserves : Cert.preserves_Kernel_KernelIdeal := trivial

/-- From memories that agree on the inputs, both programs end with one and the same array: the kernel's is the
    normalised second layer of the hidden layer with the accumulated statistics, the reference's the same with the
    two-pass statistics, and under finite inputs the two statistics coincide. -/
theorem algebraic : Cert.algebraic_KernelIdeal_ReferenceIdeal := by
  intro m ρ m' ρ' hpre hagree
  refine ⟨_, Cert.KernelIdeal.KRun.run m ρ (fun V c => Cert.KernelIdeal.K0I.final4 V c)
    (fun V c k => Cert.KernelIdeal.K0I.final5 V c k) (fun V c k => Cert.KernelIdeal.K0I.final6 V c k), ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7⟩ := hagree c
  rw [e0, e1, e2, e3, e4, e5, e6, e7]
  exact (Cert.Bridge.kernel_eq_ref _ _ _ _ _ _ _ _ (hpre c) _ (Cert.AggEq.agg_eq _ _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
